-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v61)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v61) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v95) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg5 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  main_v23

def fn {F : FTy → Type} [FloatOps F] (main_arg0 : FVec F S100000x128 .f32) (main_arg1 : IVec S2x1600000 32) (main_arg2 : FVec F S128x128 .f32) (main_arg3 : FVec F S128 .f32) (main_arg4 : FVec F S128x128 .f32) (main_arg5 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_v13 main_v16
-- ==== Kernel.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S5000x128 : Shape := ⟨2, ![5000, 128]⟩
abbrev S1700000x128 : Shape := ⟨2, ![1700000, 128]⟩
abbrev S1x128 : Shape := ⟨2, ![1, 128]⟩

abbrev nBuf : Space → Nat
  | .hbm => 84
  | .vmem => 20
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S100000, .i32⟩
  | .hbm, ⟨7, _⟩ => ⟨S1x1600000, .i32⟩
  | .hbm, ⟨8, _⟩ => ⟨S1600000, .i32⟩
  | .hbm, ⟨9, _⟩ => ⟨S1700000, .i32⟩
  | .hbm, ⟨10, _⟩ => ⟨S1x1600000, .i32⟩
  | .hbm, ⟨11, _⟩ => ⟨S1600000, .i32⟩
  | .hbm, ⟨12, _⟩ => ⟨S1700000, .i32⟩
  | .hbm, ⟨13, _⟩ => ⟨S_, .f32⟩
  | .hbm, ⟨14, _⟩ => ⟨S1700000, .f32⟩
  | .hbm, ⟨15, _⟩ => ⟨S_, .f32⟩
  | .hbm, ⟨16, _⟩ => ⟨S100000, .f32⟩
  | .hbm, ⟨17, _⟩ => ⟨S1700000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S100000, .f32⟩
  | .hbm, ⟨23, _⟩ => ⟨S_, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S_, .i32⟩
  | .hbm, ⟨28, _⟩ => ⟨S1700000, .i32⟩
  | .hbm, ⟨29, _⟩ => ⟨S1700000, .i1⟩
  | .hbm, ⟨30, _⟩ => ⟨S_, .i32⟩
  | .hbm, ⟨31, _⟩ => ⟨S1700000, .i32⟩
  | .hbm, ⟨32, _⟩ => ⟨S1700000, .i32⟩
  | .hbm, ⟨33, _⟩ => ⟨S1700000, .i32⟩
  | .hbm, ⟨34, _⟩ => ⟨S1700000x1, .i32⟩
  | .hbm, ⟨35, _⟩ => ⟨S1700000, .f32⟩
  | .hbm, ⟨36, _⟩ => ⟨S_, .i32⟩
  | .hbm, ⟨37, _⟩ => ⟨S1700000, .i32⟩
  | .hbm, ⟨38, _⟩ => ⟨S1700000, .i1⟩
  | .hbm, ⟨39, _⟩ => ⟨S_, .i32⟩
  | .hbm, ⟨40, _⟩ => ⟨S1700000, .i32⟩
  | .hbm, ⟨41, _⟩ => ⟨S1700000, .i32⟩
  | .hbm, ⟨42, _⟩ => ⟨S1700000, .i32⟩
  | .hbm, ⟨43, _⟩ => ⟨S1700000x1, .i32⟩
  | .hbm, ⟨44, _⟩ => ⟨S1700000, .f32⟩
  | .hbm, ⟨45, _⟩ => ⟨S1700000, .f32⟩
  | .hbm, ⟨46, _⟩ => ⟨S100000x128, .f32⟩
  | .hbm, ⟨47, _⟩ => ⟨S_, .i32⟩
  | .hbm, ⟨48, _⟩ => ⟨S1700000, .i32⟩
  | .hbm, ⟨49, _⟩ => ⟨S1700000, .i1⟩
  | .hbm, ⟨50, _⟩ => ⟨S_, .i32⟩
  | .hbm, ⟨51, _⟩ => ⟨S1700000, .i32⟩
  | .hbm, ⟨52, _⟩ => ⟨S1700000, .i32⟩
  | .hbm, ⟨53, _⟩ => ⟨S1700000, .i32⟩
  | .hbm, ⟨54, _⟩ => ⟨S1700000x1, .i32⟩
  | .hbm, ⟨55, _⟩ => ⟨S1700000x128, .f32⟩
  | .hbm, ⟨56, _⟩ => ⟨S1700000x1, .f32⟩
  | .hbm, ⟨57, _⟩ => ⟨S1700000x128, .f32⟩
  | .hbm, ⟨58, _⟩ => ⟨S1700000x128, .f32⟩
  | .hbm, ⟨59, _⟩ => ⟨S_, .f32⟩
  | .hbm, ⟨60, _⟩ => ⟨S100000x128, .f32⟩
  | .hbm, ⟨61, _⟩ => ⟨S1700000x1, .i32⟩
  | .hbm, ⟨62, _⟩ => ⟨S100000x128, .f32⟩
  | .hbm, ⟨63, _⟩ => ⟨S1x128, .f32⟩
  | .hbm, ⟨64, _⟩ => ⟨S100000x128, .f32⟩
  | .hbm, ⟨65, _⟩ => ⟨S100000x128, .f32⟩
  | .hbm, ⟨66, _⟩ => ⟨S_, .i32⟩
  | .hbm, ⟨67, _⟩ => ⟨S1700000, .i32⟩
  | .hbm, ⟨68, _⟩ => ⟨S1700000, .i1⟩
  | .hbm, ⟨69, _⟩ => ⟨S_, .i32⟩
  | .hbm, ⟨70, _⟩ => ⟨S1700000, .i32⟩
  | .hbm, ⟨71, _⟩ => ⟨S1700000, .i32⟩
  | .hbm, ⟨72, _⟩ => ⟨S1700000, .i32⟩
  | .hbm, ⟨73, _⟩ => ⟨S1700000x1, .i32⟩
  | .hbm, ⟨74, _⟩ => ⟨S1700000x128, .f32⟩
  | .hbm, ⟨75, _⟩ => ⟨S1700000x1, .f32⟩
  | .hbm, ⟨76, _⟩ => ⟨S1700000x128, .f32⟩
  | .hbm, ⟨77, _⟩ => ⟨S1700000x128, .f32⟩
  | .hbm, ⟨78, _⟩ => ⟨S_, .f32⟩
  | .hbm, ⟨79, _⟩ => ⟨S100000x128, .f32⟩
  | .hbm, ⟨80, _⟩ => ⟨S1700000x1, .i32⟩
  | .hbm, ⟨81, _⟩ => ⟨S100000x128, .f32⟩
  | .hbm, ⟨82, _⟩ => ⟨S1x128, .f32⟩
  | .hbm, ⟨83, _⟩ => ⟨S100000x128, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S1x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S128x128, .f32⟩
  | .local _ .vmem, ⟨13, _⟩ => ⟨S5000x128, .f32⟩
  | .local _ .vmem, ⟨14, _⟩ => ⟨S5000x128, .f32⟩
  | .local _ .vmem, ⟨15, _⟩ => ⟨S5000x128, .f32⟩
  | .local _ .vmem, ⟨16, _⟩ => ⟨S5000x128, .f32⟩
  | .local _ .vmem, ⟨17, _⟩ => ⟨S1x128, .f32⟩
  | .local _ .vmem, ⟨18, _⟩ => ⟨S5000x128, .f32⟩
  | .local _ .vmem, ⟨19, _⟩ => ⟨S5000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_c_9 : Ref sig .tc := ⟨.hbm, 66, rfl⟩
abbrev main_v47 : Ref sig .tc := ⟨.hbm, 67, rfl⟩
abbrev main_v48 : Ref sig .tc := ⟨.hbm, 68, rfl⟩
abbrev main_c_10 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_cst_11 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  shapeCasts_S128_S1x128 : S128.ShapeCasts S1x128
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S5000x128_S128x128_S5000x128_1_0_0_1_n_n_wf : DotDims.WF S5000x128 S128x128 S5000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S100000x128.size a
  hwx0_2 : ∀ i : grid0.Coords, EltTy.bits .f32 = 32 ∨ (Rect.block (s := S100000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S100000x128.size a
  hwx1_2 : ∀ i : grid1.Coords, EltTy.bits .f32 = 32 ∨ (Rect.block (s := S100000x128) S5000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x128.size a ≤ S100000x128.size a
  hwx2_2 : ∀ i : grid2.Coords, EltTy.bits .f32 = 32 ∨ (Rect.block (s := S100000x128) S5000x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S100000x128.size a
  hwx3_0 : ∀ i : grid3.Coords, EltTy.bits .f32 = 32 ∨ (Rect.block (s := S100000x128) S5000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x128.size a ≤ S1x128.size a
  hwx3_1 : ∀ i : grid3.Coords, EltTy.bits .f32 = 32 ∨ (Rect.block (s := S1x128) S1x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x128.size a ≤ S100000x128.size a
  hwx3_2 : ∀ i : grid3.Coords, EltTy.bits .f32 = 32 ∨ (Rect.block (s := S100000x128) S5000x128.size (cc3_transform_2 i) (hinb3_2 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v43) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v44) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v45) S5000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v45) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v46) S5000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v59) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v60) S1x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v61) S5000x128.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S1700000x128 : Shape := ⟨2, ![1700000, 128]⟩
abbrev S1x128 : Shape := ⟨2, ![1, 128]⟩

abbrev nBuf : Space → Nat
  | .hbm => 132
  | .vmem => 0
  | .smem => 0
  | _ => 0

abbrev hbmTy0_0 (i : Nat) : BufTy := match i % 128 with
  | 0 => ⟨S100000x128, .f32⟩
  | 1 => ⟨S2x1600000, .i32⟩
  | 2 => ⟨S128x128, .f32⟩
  | 3 => ⟨S128, .f32⟩
  | 4 => ⟨S128x128, .f32⟩
  | 5 => ⟨S128, .f32⟩
  | 6 => ⟨S100000, .i32⟩
  | 7 => ⟨S1x1600000, .i32⟩
  | 8 => ⟨S1600000, .i32⟩
  | 9 => ⟨S1700000, .i32⟩
  | 10 => ⟨S1x1600000, .i32⟩
  | 11 => ⟨S1600000, .i32⟩
  | 12 => ⟨S1700000, .i32⟩
  | 13 => ⟨S100000x128, .f32⟩
  | 14 => ⟨S_, .f32⟩
  | 15 => ⟨S1700000, .f32⟩
  | 16 => ⟨S_, .f32⟩
  | 17 => ⟨S100000, .f32⟩
  | 18 => ⟨S1700000x1, .i32⟩
  | 19 => ⟨S100000, .f32⟩
  | 20 => ⟨S_, .f32⟩
  | 21 => ⟨S100000, .f32⟩
  | 22 => ⟨S100000, .i1⟩
  | 23 => ⟨S100000, .f32⟩
  | 24 => ⟨S_, .f32⟩
  | 25 => ⟨S_, .f32⟩
  | 26 => ⟨S100000, .f32⟩
  | 27 => ⟨S100000, .f32⟩
  | 28 => ⟨S_, .i32⟩
  | 29 => ⟨S1700000, .i32⟩
  | 30 => ⟨S1700000, .i1⟩
  | 31 => ⟨S_, .i32⟩
  | 32 => ⟨S1700000, .i32⟩
  | 33 => ⟨S1700000, .i32⟩
  | 34 => ⟨S1700000, .i32⟩
  | 35 => ⟨S1700000x1, .i32⟩
  | 36 => ⟨S1700000, .f32⟩
  | 37 => ⟨S_, .i32⟩
  | 38 => ⟨S1700000, .i32⟩
  | 39 => ⟨S1700000, .i1⟩
  | 40 => ⟨S_, .i32⟩
  | 41 => ⟨S1700000, .i32⟩
  | 42 => ⟨S1700000, .i32⟩
  | 43 => ⟨S1700000, .i32⟩
  | 44 => ⟨S1700000x1, .i32⟩
  | 45 => ⟨S1700000, .f32⟩
  | 46 => ⟨S1700000, .f32⟩
  | 47 => ⟨S_, .i32⟩
  | 48 => ⟨S1700000, .i32⟩
  | 49 => ⟨S1700000, .i1⟩
  | 50 => ⟨S_, .i32⟩
  | 51 => ⟨S1700000, .i32⟩
  | 52 => ⟨S1700000, .i32⟩
  | 53 => ⟨S1700000, .i32⟩
  | 54 => ⟨S1700000x1, .i32⟩
  | 55 => ⟨S1700000x128, .f32⟩
  | 56 => ⟨S1700000x1, .f32⟩
  | 57 => ⟨S1700000x128, .f32⟩
  | 58 => ⟨S1700000x128, .f32⟩
  | 59 => ⟨S_, .f32⟩
  | 60 => ⟨S100000x128, .f32⟩
  | 61 => ⟨S1700000x1, .i32⟩
  | 62 => ⟨S100000x128, .f32⟩
  | 63 => ⟨S1x128, .f32⟩
  | 64 => ⟨S100000x128, .f32⟩
  | 65 => ⟨S100000x128, .f32⟩
  | 66 => ⟨S_, .f32⟩
  | 67 => ⟨S100000x128, .f32⟩
  | 68 => ⟨S100000x128, .f32⟩
  | 69 => ⟨S100000, .i32⟩
  | 70 => ⟨S1x1600000, .i32⟩
  | 71 => ⟨S1600000, .i32⟩
  | 72 => ⟨S1700000, .i32⟩
  | 73 => ⟨S1x1600000, .i32⟩
  | 74 => ⟨S1600000, .i32⟩
  | 75 => ⟨S1700000, .i32⟩
  | 76 => ⟨S100000x128, .f32⟩
  | 77 => ⟨S_, .f32⟩
  | 78 => ⟨S1700000, .f32⟩
  | 79 => ⟨S_, .f32⟩
  | 80 => ⟨S100000, .f32⟩
  | 81 => ⟨S1700000x1, .i32⟩
  | 82 => ⟨S100000, .f32⟩
  | 83 => ⟨S_, .f32⟩
  | 84 => ⟨S100000, .f32⟩
  | 85 => ⟨S100000, .i1⟩
  | 86 => ⟨S100000, .f32⟩
  | 87 => ⟨S_, .f32⟩
  | 88 => ⟨S_, .f32⟩
  | 89 => ⟨S100000, .f32⟩
  | 90 => ⟨S100000, .f32⟩
  | 91 => ⟨S_, .i32⟩
  | 92 => ⟨S1700000, .i32⟩
  | 93 => ⟨S1700000, .i1⟩
  | 94 => ⟨S_, .i32⟩
  | 95 => ⟨S1700000, .i32⟩
  | 96 => ⟨S1700000, .i32⟩
  | 97 => ⟨S1700000, .i32⟩
  | 98 => ⟨S1700000x1, .i32⟩
  | 99 => ⟨S1700000, .f32⟩
  | 100 => ⟨S_, .i32⟩
  | 101 => ⟨S1700000, .i32⟩
  | 102 => ⟨S1700000, .i1⟩
  | 103 => ⟨S_, .i32⟩
  | 104 => ⟨S1700000, .i32⟩
  | 105 => ⟨S1700000, .i32⟩
  | 106 => ⟨S1700000, .i32⟩
  | 107 => ⟨S1700000x1, .i32⟩
  | 108 => ⟨S1700000, .f32⟩
  | 109 => ⟨S1700000, .f32⟩
  | 110 => ⟨S_, .i32⟩
  | 111 => ⟨S1700000, .i32⟩
  | 112 => ⟨S1700000, .i1⟩
  | 113 => ⟨S_, .i32⟩
  | 114 => ⟨S1700000, .i32⟩
  | 115 => ⟨S1700000, .i32⟩
  | 116 => ⟨S1700000, .i32⟩
  | 117 => ⟨S1700000x1, .i32⟩
  | 118 => ⟨S1700000x128, .f32⟩
  | 119 => ⟨S1700000x1, .f32⟩
  | 120 => ⟨S1700000x128, .f32⟩
  | 121 => ⟨S1700000x128, .f32⟩
  | 122 => ⟨S_, .f32⟩
  | 123 => ⟨S100000x128, .f32⟩
  | 124 => ⟨S1700000x1, .i32⟩
  | 125 => ⟨S100000x128, .f32⟩
  | 126 => ⟨S1x128, .f32⟩
  | 127 => ⟨S100000x128, .f32⟩
  | _ => ⟨S100000x128, .f32⟩

abbrev hbmTy0_1 (i : Nat) : BufTy := match i % 128 with
  | 0 => ⟨S100000x128, .f32⟩
  | 1 => ⟨S_, .f32⟩
  | 2 => ⟨S100000x128, .f32⟩
  | 3 => ⟨S100000x128, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_call0_v0 : Ref sig .tc := ⟨.hbm, 25, rfl⟩
abbrev main_call0_v1 : Ref sig .tc := ⟨.hbm, 26, rfl⟩
abbrev main_v15 : Ref sig .tc := ⟨.hbm, 27, rfl⟩
abbrev main_c : Ref sig .tc := ⟨.hbm, 28, rfl⟩
abbrev main_v16 : Ref sig .tc := ⟨.hbm, 29, rfl⟩
abbrev main_v17 : Ref sig .tc := ⟨.hbm, 30, rfl⟩
abbrev main_c_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_c_4 : Ref sig .tc := ⟨.hbm, 37, rfl⟩
abbrev main_v23 : Ref sig .tc := ⟨.hbm, 38, rfl⟩
abbrev main_v24 : Ref sig .tc := ⟨.hbm, 39, rfl⟩
abbrev main_c_5 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_cst_9 : Ref sig .tc := ⟨.hbm, 77, rfl⟩
abbrev main_v56 : Ref sig .tc := ⟨.hbm, 78, rfl⟩
abbrev main_cst_10 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_cst_11 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_cst_12 : Ref sig .tc := ⟨.hbm, 87, rfl⟩
abbrev main_call2_v0 : Ref sig .tc := ⟨.hbm, 88, rfl⟩
abbrev main_call2_v1 : Ref sig .tc := ⟨.hbm, 89, rfl⟩
abbrev main_v63 : Ref sig .tc := ⟨.hbm, 90, rfl⟩
abbrev main_c_13 : Ref sig .tc := ⟨.hbm, 91, rfl⟩
abbrev main_v64 : Ref sig .tc := ⟨.hbm, 92, rfl⟩
abbrev main_v65 : Ref sig .tc := ⟨.hbm, 93, rfl⟩
abbrev main_c_14 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_c_15 : Ref sig .tc := ⟨.hbm, 100, rfl⟩
abbrev main_v71 : Ref sig .tc := ⟨.hbm, 101, rfl⟩
abbrev main_v72 : Ref sig .tc := ⟨.hbm, 102, rfl⟩
abbrev main_c_16 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_c_17 : Ref sig .tc := ⟨.hbm, 110, rfl⟩
abbrev main_v79 : Ref sig .tc := ⟨.hbm, 111, rfl⟩
abbrev main_v80 : Ref sig .tc := ⟨.hbm, 112, rfl⟩
abbrev main_c_18 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_v88 : Ref sig .tc := ⟨.hbm, 121, rfl⟩
abbrev main_cst_19 : Ref sig .tc := ⟨.hbm, 122, rfl⟩
abbrev main_v89 : Ref sig .tc := ⟨.hbm, 123, rfl⟩
abbrev main_v90 : Ref sig .tc := ⟨.hbm, 124, rfl⟩
abbrev main_v91 : Ref sig .tc := ⟨.hbm, 125, rfl⟩
abbrev main_v92 : Ref sig .tc := ⟨.hbm, 126, rfl⟩
abbrev main_v93 : Ref sig .tc := ⟨.hbm, 127, rfl⟩
abbrev main_v94 : Ref sig .tc := ⟨.hbm, 128, rfl⟩
abbrev main_call3_cst : Ref sig .tc := ⟨.hbm, 129, rfl⟩
abbrev main_call3_v0 : Ref sig .tc := ⟨.hbm, 130, rfl⟩
abbrev main_v95 : Ref sig .tc := ⟨.hbm, 131, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  dot_S100000x128_S128x128_S100000x128_1_0_0_1_n_n_wf : DotDims.WF S100000x128 S128x128 S100000x128 [1] [0] [0] [1] [] []
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1

variable [Facts₀]

def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf

class Facts : Prop extends Facts₀ where

variable [Facts]
-- ==== Proof.GcnTerm.lean ====
/-
  The two-layer graph convolution both programs compute, as ONE function of the six argument arrays, written with the
  host operations the reference applies (so that the reference's composed result term IS this function, by unfolding).

  With n = 100000 nodes, the E = 1600000 given edges and one self-loop per node (1700000 directed edges `e`, source
  `src e`, target `dst e`): the in-degree `deg v` counts the edges into `v`; `dinv v` is `deg v ^ (-1/2)` where
  the degree is positive and 0 elsewhere; an edge's weight is `nrm e = dinv (src e) * dinv (dst e)`. One layer sends
  a node-feature matrix `x` to `max (A (x W) + b, 0)`, where `A h` adds into row `dst e` the row `src e` of `h`
  scaled by `nrm e`, over all edges; the result is the second layer applied to the first.
  The index arithmetic the host applies to a gather's indices (a negative index counted from the end) is part of the
  shared chain and is never opened: the kernel's program applies the same operations to the same arrays.
-/
import proofs.«143763_j45140106281283_1_alg».proof.Proof.Gen.ReferenceIdeal

noncomputable section

namespace Cert.Gcn

open Idealize.ShloMosaic Cert.ReferenceIdeal Cert.ReferenceIdeal.Gen

variable (F : FTy → Type) [FloatOps F]

/-- The source node of every edge: row 0 of the edge list, then the self-loops `0 … n-1`. -/
def src (ei : (⟨S2x1600000, .i32⟩ : BufTy).Contents (Elt F)) : (⟨S1700000, .i32⟩ : BufTy).Contents (Elt F) :=
  concatenate S1700000 0 [⟨S1600000, (shapeCast _ (extractStridedSlice S1x1600000 ![0, 0] ei slices_S2x1600000_S1x1600000_0_0) shapeCasts_S1x1600000_S1600000)⟩, ⟨S100000, (iotaInDim S100000 32 0)⟩] concatenates_S1600000_S100000_S1700000_d0

/-- The target node of every edge: row 1 of the edge list, then the self-loops. -/
def dst (ei : (⟨S2x1600000, .i32⟩ : BufTy).Contents (Elt F)) : (⟨S1700000, .i32⟩ : BufTy).Contents (Elt F) :=
  concatenate S1700000 0 [⟨S1600000, (shapeCast _ (extractStridedSlice S1x1600000 ![1, 0] ei slices_S2x1600000_S1x1600000_1_0) shapeCasts_S1x1600000_S1600000)⟩, ⟨S100000, (iotaInDim S100000 32 0)⟩] concatenates_S1600000_S100000_S1700000_d0

/-- A gather's index column: a negative node index is counted from the end (`v + n`), then the vector is a column. -/
def wrap (v : (⟨S1700000, .i32⟩ : BufTy).Contents (Elt F)) : (⟨S1700000x1, .i32⟩ : BufTy).Contents (Elt F) :=
  broadcastInDim S1700000x1 ![0] bcast_S1700000_S1700000x1_0 (select (cmpi .slt v (broadcastInDim S1700000 ![] bcast_S_S1700000 (constantI S_ 32 0#32))) (addi v (broadcastInDim S1700000 ![] bcast_S_S1700000 (constantI S_ 32 100000#32))) v)

/-- The in-degree of every node: ones added at the edges' targets. -/
def deg (d : (⟨S1700000, .i32⟩ : BufTy).Contents (Elt F)) : (⟨S100000, .f32⟩ : BufTy).Contents (Elt F) :=
  Host.scatterAdd scatter_S100000_S1700000x1_S1700000_n_0_0_1 (broadcastInDim S100000 ![] bcast_S_S100000 (constant S_ .f32 0x00000000#32)) (broadcastInDim S1700000x1 ![0] bcast_S1700000_S1700000x1_0 d) (broadcastInDim S1700000 ![] bcast_S_S1700000 (constant S_ .f32 0x3F800000#32))

/-- `deg ^ (-1/2)` where the degree is positive, 0 elsewhere. -/
def dinv (d : (⟨S1700000, .i32⟩ : BufTy).Contents (Elt F)) : (⟨S100000, .f32⟩ : BufTy).Contents (Elt F) :=
  select (cmpf (F := F) .ogt (deg F d) (broadcastInDim S100000 ![] bcast_S_S100000 (constant S_ .f32 0x00000000#32))) (Host.rsqrt (deg F d)) (broadcastInDim S100000 ![] bcast_S_S100000 (id (constant S_ .f32 0x00000000#32)))

/-- An edge's weight: the product of the two endpoints' `dinv`. -/
def nrm (s d : (⟨S1700000, .i32⟩ : BufTy).Contents (Elt F)) : (⟨S1700000, .f32⟩ : BufTy).Contents (Elt F) :=
  mulf (Host.gather gather_S100000_S1700000x1_S1700000_n_0_n_n_0_1_1 (dinv F d) (wrap F s)) (Host.gather gather_S100000_S1700000x1_S1700000_n_0_n_n_0_1_1 (dinv F d) (wrap F d))

/-- The aggregation: into row `d e` of a zero matrix, the sum over the edges of row `s e` of `h` scaled by `w e`. -/
def prop (s d : (⟨S1700000, .i32⟩ : BufTy).Contents (Elt F)) (w : (⟨S1700000, .f32⟩ : BufTy).Contents (Elt F))
    (h : (⟨S100000x128, .f32⟩ : BufTy).Contents (Elt F)) : (⟨S100000x128, .f32⟩ : BufTy).Contents (Elt F) :=
  Host.scatterAdd scatter_S100000x128_S1700000x1_S1700000x128_1_0_0_1 (broadcastInDim S100000x128 ![] bcast_S_S100000x128 (constant S_ .f32 0x00000000#32)) (broadcastInDim S1700000x1 ![0] bcast_S1700000_S1700000x1_0 d) (mulf (Host.gather gather_S100000x128_S1700000x1_S1700000x128_1_0_n_n_0_1_1128 h (wrap F s)) (broadcastInDim S1700000x128 ![0, 1] bcast_S1700000x1_S1700000x128_0_1 (broadcastInDim S1700000x1 ![0] bcast_S1700000_S1700000x1_0 w)))

/-- The bias added to every row, then the positive part. -/
def biasRelu (a : (⟨S100000x128, .f32⟩ : BufTy).Contents (Elt F)) (b : (⟨S128, .f32⟩ : BufTy).Contents (Elt F)) :
    (⟨S100000x128, .f32⟩ : BufTy).Contents (Elt F) :=
  maximumf (addf a (broadcastInDim S100000x128 ![0, 1] bcast_S1x128_S100000x128_0_1 (broadcastInDim S1x128 ![1] bcast_S128_S1x128_1 b))) (broadcastInDim S100000x128 ![] bcast_S_S100000x128 (constant S_ .f32 0x00000000#32))

/-- The dense product of the node features with a weight matrix. -/
def mm (x : (⟨S100000x128, .f32⟩ : BufTy).Contents (Elt F)) (W : (⟨S128x128, .f32⟩ : BufTy).Contents (Elt F)) :
    (⟨S100000x128, .f32⟩ : BufTy).Contents (Elt F) :=
  Host.dotGeneral dot_S100000x128_S128x128_S100000x128_1_0_0_1_n_n none x W

/-- One layer: `max (A (x W) + b, 0)`. -/
def layer (ei : (⟨S2x1600000, .i32⟩ : BufTy).Contents (Elt F)) (x : (⟨S100000x128, .f32⟩ : BufTy).Contents (Elt F))
    (W : (⟨S128x128, .f32⟩ : BufTy).Contents (Elt F)) (b : (⟨S128, .f32⟩ : BufTy).Contents (Elt F)) :
    (⟨S100000x128, .f32⟩ : BufTy).Contents (Elt F) :=
  biasRelu F (prop F (src F ei) (dst F ei) (nrm F (src F ei) (dst F ei)) (mm F x W)) b

/-- The network: the second layer applied to the first. -/
def out (x : (⟨S100000x128, .f32⟩ : BufTy).Contents (Elt F)) (ei : (⟨S2x1600000, .i32⟩ : BufTy).Contents (Elt F))
    (W1 : (⟨S128x128, .f32⟩ : BufTy).Contents (Elt F)) (b1 : (⟨S128, .f32⟩ : BufTy).Contents (Elt F))
    (W2 : (⟨S128x128, .f32⟩ : BufTy).Contents (Elt F)) (b2 : (⟨S128, .f32⟩ : BufTy).Contents (Elt F)) :
    (⟨S100000x128, .f32⟩ : BufTy).Contents (Elt F) :=
  layer F ei (layer F ei x W1 b1) W2 b2

end Cert.Gcn

end
-- ==== Proof.RefValue.lean ====
/-
  The reference's run, restated: its result buffer ends at the network `Gcn.out` of the six argument arrays.
  The composed term the run reads back is that function literally — the degree, the edge weights, the aggregation,
  the bias and positive part, layer after layer — so the equation is by unfolding the definitions.
-/
import proofs.«143763_j45140106281283_1_alg».proof.Proof.RefRunPatched
import proofs.«143763_j45140106281283_1_alg».proof.Proof.GcnTerm

noncomputable section

namespace Cert.ReferenceIdeal.RefValue

open Cert.ReferenceIdeal Cert.ReferenceIdeal.Gen Idealize.ShloMosaic Idealize.ShloMosaic.TcCoe Idealize.SL.Sem

variable {F : FTy → Type} [FloatOps F]

set_option maxRecDepth 8192 in
/-- The composed result term is the two-layer network of the launch contents of the arguments. -/
theorem res_eq (m : (ℓ : Loc nD τ sig) → Buf (Elt F) ℓ) (c : Dev nD) :
    Cert.ReferenceIdeal.ValueP.res_main_v95 m c = Cert.Gcn.out F (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := by
  unfold Cert.ReferenceIdeal.ValueP.res_main_v95 Cert.Gcn.out Cert.Gcn.layer Cert.Gcn.biasRelu Cert.Gcn.prop Cert.Gcn.nrm
    Cert.Gcn.dinv Cert.Gcn.deg Cert.Gcn.wrap Cert.Gcn.mm Cert.Gcn.src Cert.Gcn.dst
  rfl

/-- Every weakly fair execution of the reference terminates with its result at the network of the arguments, the
    arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v95) = Cert.Gcn.out F (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun r h c => ⟨(h c).1.trans (res_eq m c), (h c).2⟩) (Cert.ReferenceIdeal.ValueP.run m ρ)

end Cert.ReferenceIdeal.RefValue

end
-- ==== Proof.KerHost.lean ====
/-
  The host operations of the kernel's program, read at the buffers the regions and the later stretches use, from ANY
  contents `X` of the buffers at the stretch's start:
  before the first region the edges' sources and targets (with the self-loops), and the edge weights, are the shared
  functions `Gcn.src`, `Gcn.dst`, `Gcn.nrm` of the edge list; after a matmul region the aggregation of its output is
  `Gcn.prop` of the sources, targets, weights and that output, and the bias is viewed as one row; every other buffer
  named here is left as it was.
-/
import proofs.«143763_j45140106281283_1_alg».proof.Proof.Gen.KernelIdeal.Launch
import proofs.«143763_j45140106281283_1_alg».proof.Proof.GcnTerm
import Idealize.ShloMosaic.Lib.StableHlo.Run

noncomputable section

namespace Cert.KernelIdeal.HostValue

open Idealize.ShloMosaic Idealize.ShloMosaic.TcCoe Idealize.SL.Sem Idealize.ShloMosaic.StableHlo Cert.KernelIdeal Cert.KernelIdeal.Gen

variable {F : FTy → Type} [FloatOps F] (X : Valuation τ sig (Elt F))

/-! ## Before the first region -/

theorem pre_src : after hostOps0_2 (after hostOps0_1 (after hostOps0 X)) (Proc.devRef .tc main_v3) = Cert.Gcn.src F (X (Proc.devRef .tc main_arg1)) := by
  after_results
  rfl

theorem pre_dst : after hostOps0_2 (after hostOps0_1 (after hostOps0 X)) (Proc.devRef .tc main_v6) = Cert.Gcn.dst F (X (Proc.devRef .tc main_arg1)) := by
  after_results
  rfl

set_option maxHeartbeats 8000000 in
theorem pre_nrm : after hostOps0_2 (after hostOps0_1 (after hostOps0 X)) (Proc.devRef .tc main_v29)
    = Cert.Gcn.nrm F (Cert.Gcn.src F (X (Proc.devRef .tc main_arg1))) (Cert.Gcn.dst F (X (Proc.devRef .tc main_arg1))) := by
  after_results_simp <;> rfl

theorem pre_arg0 : after hostOps0_2 (after hostOps0_1 (after hostOps0 X)) (Proc.devRef .tc main_arg0) = X (Proc.devRef .tc main_arg0) := by
  after_results
theorem pre_arg2 : after hostOps0_2 (after hostOps0_1 (after hostOps0 X)) (Proc.devRef .tc main_arg2) = X (Proc.devRef .tc main_arg2) := by
  after_results
theorem pre_arg3 : after hostOps0_2 (after hostOps0_1 (after hostOps0 X)) (Proc.devRef .tc main_arg3) = X (Proc.devRef .tc main_arg3) := by
  after_results
theorem pre_arg4 : after hostOps0_2 (after hostOps0_1 (after hostOps0 X)) (Proc.devRef .tc main_arg4) = X (Proc.devRef .tc main_arg4) := by
  after_results
theorem pre_arg5 : after hostOps0_2 (after hostOps0_1 (after hostOps0 X)) (Proc.devRef .tc main_arg5) = X (Proc.devRef .tc main_arg5) := by
  after_results

/-! ## Between the first matmul region and its bias region -/

set_option maxHeartbeats 8000000 in
theorem mid_agg : after hostOps1 X (Proc.devRef .tc main_v43)
    = Cert.Gcn.prop F (X (Proc.devRef .tc main_v3)) (X (Proc.devRef .tc main_v6)) (X (Proc.devRef .tc main_v29)) (X (Proc.devRef .tc main_v30)) := by
  after_results_simp <;> rfl

theorem mid_bias : after hostOps1 X (Proc.devRef .tc main_v44) = shapeCast S1x128 (X (Proc.devRef .tc main_arg3)) shapeCasts_S128_S1x128 := by
  after_results
  rfl

theorem mid_v3 : after hostOps1 X (Proc.devRef .tc main_v3) = X (Proc.devRef .tc main_v3) := by
  after_results
theorem mid_v6 : after hostOps1 X (Proc.devRef .tc main_v6) = X (Proc.devRef .tc main_v6) := by
  after_results
theorem mid_v29 : after hostOps1 X (Proc.devRef .tc main_v29) = X (Proc.devRef .tc main_v29) := by
  after_results
theorem mid_arg4 : after hostOps1 X (Proc.devRef .tc main_arg4) = X (Proc.devRef .tc main_arg4) := by
  after_results
theorem mid_arg5 : after hostOps1 X (Proc.devRef .tc main_arg5) = X (Proc.devRef .tc main_arg5) := by
  after_results

/-! ## Between the second matmul region and its bias region -/

set_option maxHeartbeats 8000000 in
theorem last_agg : after hostOps3 X (Proc.devRef .tc main_v59)
    = Cert.Gcn.prop F (X (Proc.devRef .tc main_v3)) (X (Proc.devRef .tc main_v6)) (X (Proc.devRef .tc main_v29)) (X (Proc.devRef .tc main_v46)) := by
  after_results_simp <;> rfl

theorem last_bias : after hostOps3 X (Proc.devRef .tc main_v60) = shapeCast S1x128 (X (Proc.devRef .tc main_arg5)) shapeCasts_S128_S1x128 := by
  after_results
  rfl

theorem last_v3 : after hostOps3 X (Proc.devRef .tc main_v3) = X (Proc.devRef .tc main_v3) := by
  after_results
theorem last_v6 : after hostOps3 X (Proc.devRef .tc main_v6) = X (Proc.devRef .tc main_v6) := by
  after_results
theorem last_v29 : after hostOps3 X (Proc.devRef .tc main_v29) = X (Proc.devRef .tc main_v29) := by
  after_results

end Cert.KernelIdeal.HostValue

end
-- ==== Proof.KerPay.lean ====
/-
  What each kernel body stores, as a function of the tiles it loads, entry by entry at the extended reals
  (a change of float format is the identity there, and a cast to the same shape is the identity):
  a matmul body stores the 5000 x 128 tile whose entry (p, q) is the sum over k of x[p, k] * W[k, q];
  a bias body stores the tile whose entry (p, q) is max (a[p, q] + b[0, q], 0).
-/
import proofs.«143763_j45140106281283_1_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.Pay

open Idealize.ShloMosaic Idealize.ShloMosaic.ValueIdx Cert.KernelIdeal Cert.KernelIdeal.Gen

/-- The tile product's dimension record: contraction of axis 1 of the row tile with axis 0 of the weights. -/
abbrev dotK : DotDims S5000x128 S128x128 S5000x128 := dot_S5000x128_S128x128_S5000x128_1_0_0_1_n_n

theorem dotK_lhs0 (i : S5000x128.Idx) (c : dotK.contr.Idx) : (dotK.lhsIdx i c 0).val = (i 0).val := by
  unfold DotDims.lhsIdx
  rw [dif_neg (show ¬(0 : Fin S5000x128.rank) ∈ dotK.lhsBatch by decide), dif_pos (show (0 : Fin S5000x128.rank) ∈ dotK.lhsNonContracting by decide)]
  rfl
theorem dotK_lhs1 (i : S5000x128.Idx) (c : dotK.contr.Idx) : (dotK.lhsIdx i c 1).val = (c ⟨0, by decide⟩).val :=
  dotK.lhsIdx_val_of_single rfl i c
theorem dotK_rhs0 (i : S5000x128.Idx) (c : dotK.contr.Idx) : (dotK.rhsIdx i c 0).val = (c ⟨0, by decide⟩).val :=
  dotK.rhsIdx_val_of_single rfl i c
theorem dotK_rhs1 (i : S5000x128.Idx) (c : dotK.contr.Idx) : (dotK.rhsIdx i c 1).val = (i 1).val := by
  unfold DotDims.rhsIdx
  rw [dif_neg (show ¬(1 : Fin S128x128.rank) ∈ dotK.rhsBatch by decide), dif_pos (show (1 : Fin S128x128.rank) ∈ dotK.rhsNonContracting by decide)]
  rfl

/-- A row tile times the weights, accumulated into zero: entry (p, q) is the sum over k of A[p, k] * B[k, q]. -/
theorem matmul_tile {φ₁ φ₂ : FTy} (A : FVec Ideal S5000x128 φ₁) (B : FVec Ideal S128x128 φ₂) (p : Fin 5000) (q : Fin 128) :
    matmul dotK none A B (constant S5000x128 .f32 0x00000000#32) (ix2 p q) = ∑ k : Fin 128, A (ix2 p k) * B (ix2 k q) := by
  show FloatOps.matmul dotK none A B _ (ix2 p q) = _
  rw [Ideal.matmul_constant_zero_apply, ← Equiv.sum_comp (contrEquiv1 dotK 128 rfl rfl).symm]
  refine Finset.sum_congr rfl fun k _ => ?_
  have hk := contrEquiv1_symm_val dotK 128 rfl rfl k
  have el : dotK.lhsIdx (ix2 p q) ((contrEquiv1 dotK 128 rfl rfl).symm k) = ix2 p k := funext fun a => Fin.ext (by
    match a with
    | ⟨0, _⟩ => exact dotK_lhs0 _ _
    | ⟨1, _⟩ => exact (dotK_lhs1 _ _).trans hk)
  have er : dotK.rhsIdx (ix2 p q) ((contrEquiv1 dotK 128 rfl rfl).symm k) = ix2 k q := funext fun a => Fin.ext (by
    match a with
    | ⟨0, _⟩ => exact (dotK_rhs0 _ _).trans hk
    | ⟨1, _⟩ => exact dotK_rhs1 _ _)
  rw [el, er]

/-- The first layer's matmul body: entry (p, q) of what it stores. -/
theorem pay_mm0 (x0 : Vec Ideal S5000x128 .f32) (x1 : Vec Ideal S128x128 .f32) (p : Fin 5000) (q : Fin 128) :
    k0_pay1 (F := Ideal) x0 x1 (ix2 p q) = ∑ k : Fin 128, x0 (ix2 p k) * x1 (ix2 k q) := by
  unfold k0_pay1
  exact matmul_tile (φ₁ := .bf16) (φ₂ := .bf16) (truncf .bf16 x0 bitsLt_bf16_f32) (truncf .bf16 x1 bitsLt_bf16_f32) p q

/-- The second layer's matmul body (its row tile passes through a cast to its own shape first). -/
theorem pay_mm2 (x0 : Vec Ideal S5000x128 .f32) (x1 : Vec Ideal S128x128 .f32) (p : Fin 5000) (q : Fin 128) :
    k2_pay1 (F := Ideal) x0 x1 (ix2 p q) = ∑ k : Fin 128, x0 (ix2 p k) * x1 (ix2 k q) := by
  have e : shapeCast S5000x128 x0 shapeCasts_S5000x128_S5000x128 = x0 := shapeCast_self _ _
  unfold k2_pay1
  refine (matmul_tile (φ₁ := .bf16) (φ₂ := .bf16) (truncf .bf16 (shapeCast S5000x128 x0 shapeCasts_S5000x128_S5000x128) bitsLt_bf16_f32)
    (truncf .bf16 x1 bitsLt_bf16_f32) p q).trans ?_
  refine Finset.sum_congr rfl fun k _ => ?_
  show (shapeCast S5000x128 x0 shapeCasts_S5000x128_S5000x128) (ix2 p k) * x1 (ix2 k q) = _
  rw [e]

/-- A bias body: entry (p, q) of what it stores (the one row of the bias tile is row 0). -/
theorem bias_tile (x0 : Vec Ideal S5000x128 .f32) (x1 : Vec Ideal S1x128 .f32) (p : Fin 5000) (q : Fin 128) :
    maximumf (addf (shapeCast S5000x128 x0 shapeCasts_S5000x128_S5000x128)
        (broadcastTo S5000x128 (shapeCast S1x128 x1 shapeCasts_S1x128_S1x128) broadcasts_S1x128_S5000x128))
      (broadcast S5000x128 (Scalar.ofBits (F := Ideal) .f32 0x00000000#32)) (ix2 p q)
      = max (x0 (ix2 p q) + x1 (ix2 (0 : Fin 1) q)) (Ideal.ofBits .f32 0x00000000#32) := by
  have e0 : shapeCast S5000x128 x0 shapeCasts_S5000x128_S5000x128 = x0 := shapeCast_self _ _
  have e1 : shapeCast S1x128 x1 shapeCasts_S1x128_S1x128 = x1 := shapeCast_self _ _
  rw [e0, e1, maximumf_apply, addf_apply, broadcastTo_1b_ab_apply]
  rfl

theorem pay_bias1 (x0 : Vec Ideal S5000x128 .f32) (x1 : Vec Ideal S1x128 .f32) (p : Fin 5000) (q : Fin 128) :
    k1_pay1 (F := Ideal) x0 x1 (ix2 p q) = max (x0 (ix2 p q) + x1 (ix2 (0 : Fin 1) q)) (Ideal.ofBits .f32 0x00000000#32) := by
  unfold k1_pay1
  exact bias_tile x0 x1 p q

theorem pay_bias3 (x0 : Vec Ideal S5000x128 .f32) (x1 : Vec Ideal S1x128 .f32) (p : Fin 5000) (q : Fin 128) :
    k3_pay1 (F := Ideal) x0 x1 (ix2 p q) = max (x0 (ix2 p q) + x1 (ix2 (0 : Fin 1) q)) (Ideal.ofBits .f32 0x00000000#32) := by
  unfold k3_pay1
  exact bias_tile x0 x1 p q

end Cert.KernelIdeal.Pay

end
-- ==== Proof.GcnRead.lean ====
/-
  The two dense pieces of the network read at an index (p, q), at the extended reals:
  the product with a weight matrix is the sum over k of x[p, k] * W[k, q]; the bias and positive part are
  max (a[p, q] + b[q], 0). These are what the kernel's blocks are compared with, entry by entry.
-/
import proofs.«143763_j45140106281283_1_alg».proof.Proof.GcnTerm
import Idealize.ShloMosaic.Lib.Pipeline.Value
import Idealize.ShloMosaic.Lib.ValueIdx
import Idealize.ShloMosaic.PureOps.Ideal.Laws

noncomputable section

open scoped BigOperators

namespace Cert.Gcn

open Idealize.ShloMosaic Idealize.ShloMosaic.ValueIdx Cert.ReferenceIdeal Cert.ReferenceIdeal.Gen

/-- The host product's dimension record: contraction of axis 1 of the features with axis 0 of the weights. -/
abbrev dotR : DotDims S100000x128 S128x128 S100000x128 := dot_S100000x128_S128x128_S100000x128_1_0_0_1_n_n

theorem dotR_lhs0 (i : S100000x128.Idx) (c : dotR.contr.Idx) : (dotR.lhsIdx i c 0).val = (i 0).val := by
  unfold DotDims.lhsIdx
  rw [dif_neg (show ¬(0 : Fin S100000x128.rank) ∈ dotR.lhsBatch by decide), dif_pos (show (0 : Fin S100000x128.rank) ∈ dotR.lhsNonContracting by decide)]
  rfl
theorem dotR_lhs1 (i : S100000x128.Idx) (c : dotR.contr.Idx) : (dotR.lhsIdx i c 1).val = (c ⟨0, by decide⟩).val :=
  dotR.lhsIdx_val_of_single rfl i c
theorem dotR_rhs0 (i : S100000x128.Idx) (c : dotR.contr.Idx) : (dotR.rhsIdx i c 0).val = (c ⟨0, by decide⟩).val :=
  dotR.rhsIdx_val_of_single rfl i c
theorem dotR_rhs1 (i : S100000x128.Idx) (c : dotR.contr.Idx) : (dotR.rhsIdx i c 1).val = (i 1).val := by
  unfold DotDims.rhsIdx
  rw [dif_neg (show ¬(1 : Fin S128x128.rank) ∈ dotR.rhsBatch by decide), dif_pos (show (1 : Fin S128x128.rank) ∈ dotR.rhsNonContracting by decide)]
  rfl

/-- Entry (p, q) of `x W` is the sum over k of x[p, k] * W[k, q]. -/
theorem mm_apply (x : (⟨S100000x128, .f32⟩ : BufTy).Contents (Elt Ideal)) (W : (⟨S128x128, .f32⟩ : BufTy).Contents (Elt Ideal))
    (p : Fin 100000) (q : Fin 128) :
    mm Ideal x W (ix2 p q) = ∑ k : Fin 128, x (ix2 p k) * W (ix2 k q) := by
  unfold mm
  simp only [Host.dotGeneral]
  rw [Ideal.dotGeneral_apply, ← Equiv.sum_comp (contrEquiv1 dotR 128 rfl rfl).symm]
  refine Finset.sum_congr rfl fun k _ => ?_
  have hk := contrEquiv1_symm_val dotR 128 rfl rfl k
  have el : dotR.lhsIdx (ix2 p q) ((contrEquiv1 dotR 128 rfl rfl).symm k) = ix2 p k := funext fun a => Fin.ext (by
    match a with
    | ⟨0, _⟩ => exact dotR_lhs0 _ _
    | ⟨1, _⟩ => exact (dotR_lhs1 _ _).trans hk)
  have er : dotR.rhsIdx (ix2 p q) ((contrEquiv1 dotR 128 rfl rfl).symm k) = ix2 k q := funext fun a => Fin.ext (by
    match a with
    | ⟨0, _⟩ => exact (dotR_rhs0 _ _).trans hk
    | ⟨1, _⟩ => exact dotR_rhs1 _ _)
  rw [el, er]

/-- Entry (p, q) of the bias and positive part is max (a[p, q] + b[q], 0). -/
theorem biasRelu_apply (a : (⟨S100000x128, .f32⟩ : BufTy).Contents (Elt Ideal)) (b : (⟨S128, .f32⟩ : BufTy).Contents (Elt Ideal))
    (p : Fin 100000) (q : Fin 128) :
    biasRelu Ideal a b (ix2 p q) = max (a (ix2 p q) + b (ix1 q)) (Ideal.ofBits .f32 0x00000000#32) := by
  unfold biasRelu
  rw [maximumf_apply, addf_apply]
  rw [broadcastInDim_apply _ bcast_S1x128_S100000x128_0_1 _ (ix2 p q) (ix2 (0 : Fin 1) q) (fun a => by
        match a with
        | ⟨0, _⟩ => exact (if_pos rfl).symm
        | ⟨1, _⟩ => exact (show q.val = if (128 : ℕ) = 1 then 0 else q.val from (if_neg (by decide : ¬ (128 : ℕ) = 1)).symm)),
      broadcastInDim_apply _ bcast_S128_S1x128_1 b (ix2 (0 : Fin 1) q) (ix1 q) (fun a => by
        match a with
        | ⟨0, _⟩ => exact (show q.val = if (128 : ℕ) = 1 then 0 else q.val from (if_neg (by decide : ¬ (128 : ℕ) = 1)).symm)),
      broadcastInDim_apply _ bcast_S_S100000x128 _ (ix2 p q) ix0 (fun a => a.elim0)]
  rfl

end Cert.Gcn

end
-- ==== Proof.KerRegion0.lean ====
/-
  Matmul region 0: from ANY contents `V` of the buffers at its entry, the output array ends at the product
  of the row array with the weight array as the region finds them.
  The grid has 20 points; point t reads rows 5000 t … 5000 t + 4999 of the row array and all of the weight array, and
  writes the same rows of the output. Entry (p, q) of the tile it stores is the sum over k of row[5000 t + p, k] * W[k, q],
  which is entry (5000 t + p, q) of the whole product; the 20 row blocks cover the array.
-/
import proofs.«143763_j45140106281283_1_alg».proof.Proof.Gen.KernelIdeal.Frame
import proofs.«143763_j45140106281283_1_alg».proof.Proof.KerPay
import proofs.«143763_j45140106281283_1_alg».proof.Proof.GcnRead

set_option maxRecDepth 16384

noncomputable section

open scoped BigOperators

namespace Cert.KernelIdeal.Region0

open Idealize.ShloMosaic Idealize.ShloMosaic.TcCoe Idealize.ShloMosaic.ValueIdx Idealize.SL.Sem Cert.KernelIdeal Cert.KernelIdeal.Gen
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The index maps over the grid: the row window and the output window sit at block row t, column block 0; the weight
    window always at block (0, 0). -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point t writes back is block t of the whole product. -/
theorem flushed_eq (c : Dev nD) (t : Fin cfg0.N) :
    (dat0 V c).flushed 2 t
      = ((cfg0.win 2).blk t).view.read (Elt Ideal) (Cert.Gcn.mm Ideal (V c main_arg0) (V c main_arg2)) := by
  show (cfg0.win 2).cut (grid0.coords t) ((dat0 V c).after 2 t) = _
  rw [after0_2]
  unfold out0_2
  rw [View.canon_unit_zero hz]
  simp only [View.ld_unit_zero (S := S5000x128) hz, View.ld_unit_zero (S := S128x128) hz]
  obtain ⟨e0, e1, e2, e3, e4, e5⟩ := idx_facts t
  have ht : t.val < 20 := lt_of_lt_of_eq t.isLt N_0
  funext j
  have hj0 : (j 0).val < 5000 := (j 0).isLt
  have hj1 : (j 1).val < 128 := (j 1).isLt
  show k0_pay1 (F := Ideal) (iblk0 V c 0 t) (iblk0 V c 1 t) ((cfg0.win 2).xinj (grid0.coords t) j)
    = Cert.Gcn.mm Ideal (V c main_arg0) (V c main_arg2) (((cfg0.win 2).blk t).view.emb j)
  have hx : (cfg0.win 2).xinj (grid0.coords t) j = ix2 (⟨(j 0).val, hj0⟩ : Fin 5000) (⟨(j 1).val, hj1⟩ : Fin 128) :=
    funext fun a => by match a with | ⟨0, _⟩ => rfl | ⟨1, _⟩ => rfl
  have hemb : ((cfg0.win 2).blk t).view.emb j
      = ix2 (⟨t.val * 5000 + (j 0).val, by omega⟩ : Fin 100000) (⟨(j 1).val, hj1⟩ : Fin 128) := by
    funext a; apply Fin.ext
    match a with
    | ⟨0, _⟩ => show win0_2.index t (0 : Fin 2) * 5000 + 1 * (j 0).val = t.val * 5000 + (j 0).val; omega
    | ⟨1, _⟩ => show win0_2.index t (1 : Fin 2) * 128 + 1 * (j 1).val = (j 1).val; omega
  rw [hx, hemb, Cert.Gcn.mm_apply]
  refine (Cert.KernelIdeal.Pay.pay_mm0 (iblk0 V c 0 t) (iblk0 V c 1 t) ⟨(j 0).val, hj0⟩ ⟨(j 1).val, hj1⟩).trans ?_
  refine Finset.sum_congr rfl fun k _ => ?_
  have hA : iblk0 V c 0 t (ix2 (⟨(j 0).val, hj0⟩ : Fin 5000) k)
      = V c main_arg0 (ix2 (⟨t.val * 5000 + (j 0).val, by omega⟩ : Fin 100000) k) := by
    show V c main_arg0 (((cfg0.win 0).blk t).view.emb (ix2 (⟨(j 0).val, hj0⟩ : Fin 5000) k)) = _
    refine congrArg _ (funext fun a => Fin.ext ?_)
    match a with
    | ⟨0, _⟩ => show win0_0.index t (0 : Fin 2) * 5000 + 1 * (j 0).val = t.val * 5000 + (j 0).val; omega
    | ⟨1, _⟩ => show win0_0.index t (1 : Fin 2) * 128 + 1 * k.val = k.val; omega
  have hB : iblk0 V c 1 t (ix2 k (⟨(j 1).val, hj1⟩ : Fin 128)) = V c main_arg2 (ix2 k (⟨(j 1).val, hj1⟩ : Fin 128)) := by
    show V c main_arg2 (((cfg0.win 1).blk t).view.emb (ix2 k (⟨(j 1).val, hj1⟩ : Fin 128))) = _
    refine congrArg _ (funext fun a => Fin.ext ?_)
    match a with
    | ⟨0, _⟩ => show win0_1.index t (0 : Fin 2) * 128 + 1 * k.val = k.val; omega
    | ⟨1, _⟩ => show win0_1.index t (1 : Fin 2) * 128 + 1 * (j 1).val = (j 1).val; omega
  rw [hA, hB]

/-- An index of the array is in point t's block iff each coordinate is in the block's range on its axis. -/
theorem mem_blk (t : Fin cfg0.N) (i : S100000x128.Idx) :
    i ∈ ((cfg0.win 2).blk t).view.set ↔ ∀ a : Fin 2, win0_2.index t a * S5000x128.size a ≤ (i a).val ∧ (i a).val < win0_2.index t a * S5000x128.size a + S5000x128.size a := by
  show i ∈ ((View.whole main_v30).slice (win0_2.rect t)).set ↔ _
  rw [View.set_slice_whole, Rect.mem_set_unit]
  exact Iff.rfl

/-- Row r of the array is in the block of point r / 5000. -/
theorem cover (i : S100000x128.Idx) :
    ∃ t : Fin cfg0.N, (cfg0.win 2).flush t = true ∧ i ∈ ((cfg0.win 2).blk t).view.set := by
  have hi0 : (i 0).val < 100000 := (i 0).isLt
  have hi1 : (i 1).val < 128 := (i 1).isLt
  have hlt : (i 0).val / 5000 < grid0.N := by rw [N_0]; omega
  obtain ⟨e0, e1, e2, e3, e4, e5⟩ := idx_facts (⟨(i 0).val / 5000, hlt⟩ : Fin cfg0.N)
  have e4' : win0_2.index (⟨(i 0).val / 5000, hlt⟩ : Fin cfg0.N) (0 : Fin 2) = (i 0).val / 5000 := e4
  refine ⟨⟨(i 0).val / 5000, hlt⟩, flush0_2 _, ?_⟩
  rw [mem_blk]
  intro a
  match a with
  | ⟨0, _⟩ =>
    show win0_2.index ⟨(i 0).val / 5000, hlt⟩ (0 : Fin 2) * 5000 ≤ (i 0).val ∧ (i 0).val < win0_2.index ⟨(i 0).val / 5000, hlt⟩ (0 : Fin 2) * 5000 + 5000
    omega
  | ⟨1, _⟩ =>
    show win0_2.index ⟨(i 0).val / 5000, hlt⟩ (1 : Fin 2) * 128 ≤ (i 1).val ∧ (i 1).val < win0_2.index ⟨(i 0).val / 5000, hlt⟩ (1 : Fin 2) * 128 + 128
    omega

/-- The output array after the region: the whole product. -/
theorem final (c : Dev nD) :
    (dat0 V c).arrAt 2 cfg0.N = Cert.Gcn.mm Ideal (V c main_arg0) (V c main_arg2) :=
  (dat0 V c).arrAt_eq_of_cover 2 _ (fun t _ => flushed_eq V c t) cover

end Cert.KernelIdeal.Region0

end
-- ==== Proof.KerRegion1.lean ====
/-
  Bias region 1: from ANY contents `V` of the buffers at its entry whose row buffer is a bias vector `b` viewed as one
  row, the output array ends at max (a + b, 0), the bias added to every row of the array `a` the region finds.
  The grid has 20 points; point t reads rows 5000 t … 5000 t + 4999 of `a` and the one bias row, and writes the same rows
  of the output. Entry (p, q) of the tile it stores is max (a[5000 t + p, q] + b[q], 0); the 20 row blocks cover the array.
-/
import proofs.«143763_j45140106281283_1_alg».proof.Proof.Gen.KernelIdeal.Frame
import proofs.«143763_j45140106281283_1_alg».proof.Proof.KerPay
import proofs.«143763_j45140106281283_1_alg».proof.Proof.GcnRead

set_option maxRecDepth 16384

noncomputable section

open scoped BigOperators

namespace Cert.KernelIdeal.Region1

open Idealize.ShloMosaic Idealize.ShloMosaic.TcCoe Idealize.ShloMosaic.ValueIdx Idealize.SL.Sem Cert.KernelIdeal Cert.KernelIdeal.Gen
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The index maps over the grid: the input window and the output window sit at block row t, column block 0; the bias
    row's window always at block (0, 0). -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- What point t writes back is block t of the whole bias-and-positive-part array. -/
theorem flushed_eq (c : Dev nD) (b : (⟨S128, .f32⟩ : BufTy).Contents (Elt Ideal))
    (hb : V c main_v44 = shapeCast S1x128 b shapeCasts_S128_S1x128) (t : Fin cfg1.N) :
    (dat1 V c).flushed 2 t
      = ((cfg1.win 2).blk t).view.read (Elt Ideal) (Cert.Gcn.biasRelu Ideal (V c main_v43) b) := by
  show (cfg1.win 2).cut (grid1.coords t) ((dat1 V c).after 2 t) = _
  rw [after1_2]
  unfold out1_2
  rw [View.canon_unit_zero hz]
  simp only [View.ld_unit_zero (S := S5000x128) hz, View.ld_unit_zero (S := S1x128) hz]
  obtain ⟨e0, e1, e2, e3, e4, e5⟩ := idx_facts t
  have ht : t.val < 20 := lt_of_lt_of_eq t.isLt N_1
  funext j
  have hj0 : (j 0).val < 5000 := (j 0).isLt
  have hj1 : (j 1).val < 128 := (j 1).isLt
  show k1_pay1 (F := Ideal) (iblk1 V c 0 t) (iblk1 V c 1 t) ((cfg1.win 2).xinj (grid1.coords t) j)
    = Cert.Gcn.biasRelu Ideal (V c main_v43) b (((cfg1.win 2).blk t).view.emb j)
  have hx : (cfg1.win 2).xinj (grid1.coords t) j = ix2 (⟨(j 0).val, hj0⟩ : Fin 5000) (⟨(j 1).val, hj1⟩ : Fin 128) :=
    funext fun a => by match a with | ⟨0, _⟩ => rfl | ⟨1, _⟩ => rfl
  have hemb : ((cfg1.win 2).blk t).view.emb j
      = ix2 (⟨t.val * 5000 + (j 0).val, by omega⟩ : Fin 100000) (⟨(j 1).val, hj1⟩ : Fin 128) := by
    funext a; apply Fin.ext
    match a with
    | ⟨0, _⟩ => show win1_2.index t (0 : Fin 2) * 5000 + 1 * (j 0).val = t.val * 5000 + (j 0).val; omega
    | ⟨1, _⟩ => show win1_2.index t (1 : Fin 2) * 128 + 1 * (j 1).val = (j 1).val; omega
  rw [hx, hemb, Cert.Gcn.biasRelu_apply]
  refine (Cert.KernelIdeal.Pay.pay_bias1 (iblk1 V c 0 t) (iblk1 V c 1 t) ⟨(j 0).val, hj0⟩ ⟨(j 1).val, hj1⟩).trans ?_
  have hA : iblk1 V c 0 t (ix2 (⟨(j 0).val, hj0⟩ : Fin 5000) (⟨(j 1).val, hj1⟩ : Fin 128))
      = V c main_v43 (ix2 (⟨t.val * 5000 + (j 0).val, by omega⟩ : Fin 100000) (⟨(j 1).val, hj1⟩ : Fin 128)) := by
    show V c main_v43 (((cfg1.win 0).blk t).view.emb (ix2 (⟨(j 0).val, hj0⟩ : Fin 5000) (⟨(j 1).val, hj1⟩ : Fin 128))) = _
    refine congrArg _ (funext fun a => Fin.ext ?_)
    match a with
    | ⟨0, _⟩ => show win1_0.index t (0 : Fin 2) * 5000 + 1 * (j 0).val = t.val * 5000 + (j 0).val; omega
    | ⟨1, _⟩ => show win1_0.index t (1 : Fin 2) * 128 + 1 * (j 1).val = (j 1).val; omega
  have hB : iblk1 V c 1 t (ix2 (0 : Fin 1) (⟨(j 1).val, hj1⟩ : Fin 128)) = b (ix1 (⟨(j 1).val, hj1⟩ : Fin 128)) := by
    show V c main_v44 (((cfg1.win 1).blk t).view.emb (ix2 (0 : Fin 1) (⟨(j 1).val, hj1⟩ : Fin 128))) = _
    have he : ((cfg1.win 1).blk t).view.emb (ix2 (0 : Fin 1) (⟨(j 1).val, hj1⟩ : Fin 128))
        = ix2 (0 : Fin 1) (⟨(j 1).val, hj1⟩ : Fin 128) := funext fun a => Fin.ext (by
      match a with
      | ⟨0, _⟩ => show win1_1.index t (0 : Fin 2) * 1 + 1 * 0 = 0; omega
      | ⟨1, _⟩ => show win1_1.index t (1 : Fin 2) * 128 + 1 * (j 1).val = (j 1).val; omega)
    rw [he, hb]
    exact shapeCast_a_1a_apply b shapeCasts_S128_S1x128 0 ⟨(j 1).val, hj1⟩
  rw [hA, hB]

/-- An index of the array is in point t's block iff each coordinate is in the block's range on its axis. -/
theorem mem_blk (t : Fin cfg1.N) (i : S100000x128.Idx) :
    i ∈ ((cfg1.win 2).blk t).view.set ↔ ∀ a : Fin 2, win1_2.index t a * S5000x128.size a ≤ (i a).val ∧ (i a).val < win1_2.index t a * S5000x128.size a + S5000x128.size a := by
  show i ∈ ((View.whole main_v45).slice (win1_2.rect t)).set ↔ _
  rw [View.set_slice_whole, Rect.mem_set_unit]
  exact Iff.rfl

/-- Row r of the array is in the block of point r / 5000. -/
theorem cover (i : S100000x128.Idx) :
    ∃ t : Fin cfg1.N, (cfg1.win 2).flush t = true ∧ i ∈ ((cfg1.win 2).blk t).view.set := by
  have hi0 : (i 0).val < 100000 := (i 0).isLt
  have hi1 : (i 1).val < 128 := (i 1).isLt
  have hlt : (i 0).val / 5000 < grid1.N := by rw [N_1]; omega
  obtain ⟨e0, e1, e2, e3, e4, e5⟩ := idx_facts (⟨(i 0).val / 5000, hlt⟩ : Fin cfg1.N)
  have e4' : win1_2.index (⟨(i 0).val / 5000, hlt⟩ : Fin cfg1.N) (0 : Fin 2) = (i 0).val / 5000 := e4
  refine ⟨⟨(i 0).val / 5000, hlt⟩, flush1_2 _, ?_⟩
  rw [mem_blk]
  intro a
  match a with
  | ⟨0, _⟩ =>
    show win1_2.index ⟨(i 0).val / 5000, hlt⟩ (0 : Fin 2) * 5000 ≤ (i 0).val ∧ (i 0).val < win1_2.index ⟨(i 0).val / 5000, hlt⟩ (0 : Fin 2) * 5000 + 5000
    omega
  | ⟨1, _⟩ =>
    show win1_2.index ⟨(i 0).val / 5000, hlt⟩ (1 : Fin 2) * 128 ≤ (i 1).val ∧ (i 1).val < win1_2.index ⟨(i 0).val / 5000, hlt⟩ (1 : Fin 2) * 128 + 128
    omega

/-- The output array after the region: the bias added to every row, then the positive part. -/
theorem final (c : Dev nD) (b : (⟨S128, .f32⟩ : BufTy).Contents (Elt Ideal))
    (hb : V c main_v44 = shapeCast S1x128 b shapeCasts_S128_S1x128) :
    (dat1 V c).arrAt 2 cfg1.N = Cert.Gcn.biasRelu Ideal (V c main_v43) b :=
  (dat1 V c).arrAt_eq_of_cover 2 _ (fun t _ => flushed_eq V c b hb t) cover

end Cert.KernelIdeal.Region1

end
-- ==== Proof.KerRegion2.lean ====
/-
  Matmul region 2: from ANY contents `V` of the buffers at its entry, the output array ends at the product
  of the row array with the weight array as the region finds them.
  The grid has 20 points; point t reads rows 5000 t … 5000 t + 4999 of the row array and all of the weight array, and
  writes the same rows of the output. Entry (p, q) of the tile it stores is the sum over k of row[5000 t + p, k] * W[k, q],
  which is entry (5000 t + p, q) of the whole product; the 20 row blocks cover the array.
-/
import proofs.«143763_j45140106281283_1_alg».proof.Proof.Gen.KernelIdeal.Frame
import proofs.«143763_j45140106281283_1_alg».proof.Proof.KerPay
import proofs.«143763_j45140106281283_1_alg».proof.Proof.GcnRead

set_option maxRecDepth 16384

noncomputable section

open scoped BigOperators

namespace Cert.KernelIdeal.Region2

open Idealize.ShloMosaic Idealize.ShloMosaic.TcCoe Idealize.ShloMosaic.ValueIdx Idealize.SL.Sem Cert.KernelIdeal Cert.KernelIdeal.Gen
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The index maps over the grid: the row window and the output window sit at block row t, column block 0; the weight
    window always at block (0, 0). -/
theorem idx_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- What point t writes back is block t of the whole product. -/
theorem flushed_eq (c : Dev nD) (t : Fin cfg2.N) :
    (dat2 V c).flushed 2 t
      = ((cfg2.win 2).blk t).view.read (Elt Ideal) (Cert.Gcn.mm Ideal (V c main_v45) (V c main_arg4)) := by
  show (cfg2.win 2).cut (grid2.coords t) ((dat2 V c).after 2 t) = _
  rw [after2_2]
  unfold out2_2
  rw [View.canon_unit_zero hz]
  simp only [View.ld_unit_zero (S := S5000x128) hz, View.ld_unit_zero (S := S128x128) hz]
  obtain ⟨e0, e1, e2, e3, e4, e5⟩ := idx_facts t
  have ht : t.val < 20 := lt_of_lt_of_eq t.isLt N_2
  funext j
  have hj0 : (j 0).val < 5000 := (j 0).isLt
  have hj1 : (j 1).val < 128 := (j 1).isLt
  show k2_pay1 (F := Ideal) (iblk2 V c 0 t) (iblk2 V c 1 t) ((cfg2.win 2).xinj (grid2.coords t) j)
    = Cert.Gcn.mm Ideal (V c main_v45) (V c main_arg4) (((cfg2.win 2).blk t).view.emb j)
  have hx : (cfg2.win 2).xinj (grid2.coords t) j = ix2 (⟨(j 0).val, hj0⟩ : Fin 5000) (⟨(j 1).val, hj1⟩ : Fin 128) :=
    funext fun a => by match a with | ⟨0, _⟩ => rfl | ⟨1, _⟩ => rfl
  have hemb : ((cfg2.win 2).blk t).view.emb j
      = ix2 (⟨t.val * 5000 + (j 0).val, by omega⟩ : Fin 100000) (⟨(j 1).val, hj1⟩ : Fin 128) := by
    funext a; apply Fin.ext
    match a with
    | ⟨0, _⟩ => show win2_2.index t (0 : Fin 2) * 5000 + 1 * (j 0).val = t.val * 5000 + (j 0).val; omega
    | ⟨1, _⟩ => show win2_2.index t (1 : Fin 2) * 128 + 1 * (j 1).val = (j 1).val; omega
  rw [hx, hemb, Cert.Gcn.mm_apply]
  refine (Cert.KernelIdeal.Pay.pay_mm2 (iblk2 V c 0 t) (iblk2 V c 1 t) ⟨(j 0).val, hj0⟩ ⟨(j 1).val, hj1⟩).trans ?_
  refine Finset.sum_congr rfl fun k _ => ?_
  have hA : iblk2 V c 0 t (ix2 (⟨(j 0).val, hj0⟩ : Fin 5000) k)
      = V c main_v45 (ix2 (⟨t.val * 5000 + (j 0).val, by omega⟩ : Fin 100000) k) := by
    show V c main_v45 (((cfg2.win 0).blk t).view.emb (ix2 (⟨(j 0).val, hj0⟩ : Fin 5000) k)) = _
    refine congrArg _ (funext fun a => Fin.ext ?_)
    match a with
    | ⟨0, _⟩ => show win2_0.index t (0 : Fin 2) * 5000 + 1 * (j 0).val = t.val * 5000 + (j 0).val; omega
    | ⟨1, _⟩ => show win2_0.index t (1 : Fin 2) * 128 + 1 * k.val = k.val; omega
  have hB : iblk2 V c 1 t (ix2 k (⟨(j 1).val, hj1⟩ : Fin 128)) = V c main_arg4 (ix2 k (⟨(j 1).val, hj1⟩ : Fin 128)) := by
    show V c main_arg4 (((cfg2.win 1).blk t).view.emb (ix2 k (⟨(j 1).val, hj1⟩ : Fin 128))) = _
    refine congrArg _ (funext fun a => Fin.ext ?_)
    match a with
    | ⟨0, _⟩ => show win2_1.index t (0 : Fin 2) * 128 + 1 * k.val = k.val; omega
    | ⟨1, _⟩ => show win2_1.index t (1 : Fin 2) * 128 + 1 * (j 1).val = (j 1).val; omega
  rw [hA, hB]

/-- An index of the array is in point t's block iff each coordinate is in the block's range on its axis. -/
theorem mem_blk (t : Fin cfg2.N) (i : S100000x128.Idx) :
    i ∈ ((cfg2.win 2).blk t).view.set ↔ ∀ a : Fin 2, win2_2.index t a * S5000x128.size a ≤ (i a).val ∧ (i a).val < win2_2.index t a * S5000x128.size a + S5000x128.size a := by
  show i ∈ ((View.whole main_v46).slice (win2_2.rect t)).set ↔ _
  rw [View.set_slice_whole, Rect.mem_set_unit]
  exact Iff.rfl

/-- Row r of the array is in the block of point r / 5000. -/
theorem cover (i : S100000x128.Idx) :
    ∃ t : Fin cfg2.N, (cfg2.win 2).flush t = true ∧ i ∈ ((cfg2.win 2).blk t).view.set := by
  have hi0 : (i 0).val < 100000 := (i 0).isLt
  have hi1 : (i 1).val < 128 := (i 1).isLt
  have hlt : (i 0).val / 5000 < grid2.N := by rw [N_2]; omega
  obtain ⟨e0, e1, e2, e3, e4, e5⟩ := idx_facts (⟨(i 0).val / 5000, hlt⟩ : Fin cfg2.N)
  have e4' : win2_2.index (⟨(i 0).val / 5000, hlt⟩ : Fin cfg2.N) (0 : Fin 2) = (i 0).val / 5000 := e4
  refine ⟨⟨(i 0).val / 5000, hlt⟩, flush2_2 _, ?_⟩
  rw [mem_blk]
  intro a
  match a with
  | ⟨0, _⟩ =>
    show win2_2.index ⟨(i 0).val / 5000, hlt⟩ (0 : Fin 2) * 5000 ≤ (i 0).val ∧ (i 0).val < win2_2.index ⟨(i 0).val / 5000, hlt⟩ (0 : Fin 2) * 5000 + 5000
    omega
  | ⟨1, _⟩ =>
    show win2_2.index ⟨(i 0).val / 5000, hlt⟩ (1 : Fin 2) * 128 ≤ (i 1).val ∧ (i 1).val < win2_2.index ⟨(i 0).val / 5000, hlt⟩ (1 : Fin 2) * 128 + 128
    omega

/-- The output array after the region: the whole product. -/
theorem final (c : Dev nD) :
    (dat2 V c).arrAt 2 cfg2.N = Cert.Gcn.mm Ideal (V c main_v45) (V c main_arg4) :=
  (dat2 V c).arrAt_eq_of_cover 2 _ (fun t _ => flushed_eq V c t) cover

end Cert.KernelIdeal.Region2

end
-- ==== Proof.KerRegion3.lean ====
/-
  Bias region 3: from ANY contents `V` of the buffers at its entry whose row buffer is a bias vector `b` viewed as one
  row, the output array ends at max (a + b, 0), the bias added to every row of the array `a` the region finds.
  The grid has 20 points; point t reads rows 5000 t … 5000 t + 4999 of `a` and the one bias row, and writes the same rows
  of the output. Entry (p, q) of the tile it stores is max (a[5000 t + p, q] + b[q], 0); the 20 row blocks cover the array.
-/
import proofs.«143763_j45140106281283_1_alg».proof.Proof.Gen.KernelIdeal.Frame
import proofs.«143763_j45140106281283_1_alg».proof.Proof.KerPay
import proofs.«143763_j45140106281283_1_alg».proof.Proof.GcnRead

set_option maxRecDepth 16384

noncomputable section

open scoped BigOperators

namespace Cert.KernelIdeal.Region3

open Idealize.ShloMosaic Idealize.ShloMosaic.TcCoe Idealize.ShloMosaic.ValueIdx Idealize.SL.Sem Cert.KernelIdeal Cert.KernelIdeal.Gen
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The index maps over the grid: the input window and the output window sit at block row t, column block 0; the bias
    row's window always at block (0, 0). -/
theorem idx_facts : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- What point t writes back is block t of the whole bias-and-positive-part array. -/
theorem flushed_eq (c : Dev nD) (b : (⟨S128, .f32⟩ : BufTy).Contents (Elt Ideal))
    (hb : V c main_v60 = shapeCast S1x128 b shapeCasts_S128_S1x128) (t : Fin cfg3.N) :
    (dat3 V c).flushed 2 t
      = ((cfg3.win 2).blk t).view.read (Elt Ideal) (Cert.Gcn.biasRelu Ideal (V c main_v59) b) := by
  show (cfg3.win 2).cut (grid3.coords t) ((dat3 V c).after 2 t) = _
  rw [after3_2]
  unfold out3_2
  rw [View.canon_unit_zero hz]
  simp only [View.ld_unit_zero (S := S5000x128) hz, View.ld_unit_zero (S := S1x128) hz]
  obtain ⟨e0, e1, e2, e3, e4, e5⟩ := idx_facts t
  have ht : t.val < 20 := lt_of_lt_of_eq t.isLt N_3
  funext j
  have hj0 : (j 0).val < 5000 := (j 0).isLt
  have hj1 : (j 1).val < 128 := (j 1).isLt
  show k3_pay1 (F := Ideal) (iblk3 V c 0 t) (iblk3 V c 1 t) ((cfg3.win 2).xinj (grid3.coords t) j)
    = Cert.Gcn.biasRelu Ideal (V c main_v59) b (((cfg3.win 2).blk t).view.emb j)
  have hx : (cfg3.win 2).xinj (grid3.coords t) j = ix2 (⟨(j 0).val, hj0⟩ : Fin 5000) (⟨(j 1).val, hj1⟩ : Fin 128) :=
    funext fun a => by match a with | ⟨0, _⟩ => rfl | ⟨1, _⟩ => rfl
  have hemb : ((cfg3.win 2).blk t).view.emb j
      = ix2 (⟨t.val * 5000 + (j 0).val, by omega⟩ : Fin 100000) (⟨(j 1).val, hj1⟩ : Fin 128) := by
    funext a; apply Fin.ext
    match a with
    | ⟨0, _⟩ => show win3_2.index t (0 : Fin 2) * 5000 + 1 * (j 0).val = t.val * 5000 + (j 0).val; omega
    | ⟨1, _⟩ => show win3_2.index t (1 : Fin 2) * 128 + 1 * (j 1).val = (j 1).val; omega
  rw [hx, hemb, Cert.Gcn.biasRelu_apply]
  refine (Cert.KernelIdeal.Pay.pay_bias3 (iblk3 V c 0 t) (iblk3 V c 1 t) ⟨(j 0).val, hj0⟩ ⟨(j 1).val, hj1⟩).trans ?_
  have hA : iblk3 V c 0 t (ix2 (⟨(j 0).val, hj0⟩ : Fin 5000) (⟨(j 1).val, hj1⟩ : Fin 128))
      = V c main_v59 (ix2 (⟨t.val * 5000 + (j 0).val, by omega⟩ : Fin 100000) (⟨(j 1).val, hj1⟩ : Fin 128)) := by
    show V c main_v59 (((cfg3.win 0).blk t).view.emb (ix2 (⟨(j 0).val, hj0⟩ : Fin 5000) (⟨(j 1).val, hj1⟩ : Fin 128))) = _
    refine congrArg _ (funext fun a => Fin.ext ?_)
    match a with
    | ⟨0, _⟩ => show win3_0.index t (0 : Fin 2) * 5000 + 1 * (j 0).val = t.val * 5000 + (j 0).val; omega
    | ⟨1, _⟩ => show win3_0.index t (1 : Fin 2) * 128 + 1 * (j 1).val = (j 1).val; omega
  have hB : iblk3 V c 1 t (ix2 (0 : Fin 1) (⟨(j 1).val, hj1⟩ : Fin 128)) = b (ix1 (⟨(j 1).val, hj1⟩ : Fin 128)) := by
    show V c main_v60 (((cfg3.win 1).blk t).view.emb (ix2 (0 : Fin 1) (⟨(j 1).val, hj1⟩ : Fin 128))) = _
    have he : ((cfg3.win 1).blk t).view.emb (ix2 (0 : Fin 1) (⟨(j 1).val, hj1⟩ : Fin 128))
        = ix2 (0 : Fin 1) (⟨(j 1).val, hj1⟩ : Fin 128) := funext fun a => Fin.ext (by
      match a with
      | ⟨0, _⟩ => show win3_1.index t (0 : Fin 2) * 1 + 1 * 0 = 0; omega
      | ⟨1, _⟩ => show win3_1.index t (1 : Fin 2) * 128 + 1 * (j 1).val = (j 1).val; omega)
    rw [he, hb]
    exact shapeCast_a_1a_apply b shapeCasts_S128_S1x128 0 ⟨(j 1).val, hj1⟩
  rw [hA, hB]

/-- An index of the array is in point t's block iff each coordinate is in the block's range on its axis. -/
theorem mem_blk (t : Fin cfg3.N) (i : S100000x128.Idx) :
    i ∈ ((cfg3.win 2).blk t).view.set ↔ ∀ a : Fin 2, win3_2.index t a * S5000x128.size a ≤ (i a).val ∧ (i a).val < win3_2.index t a * S5000x128.size a + S5000x128.size a := by
  show i ∈ ((View.whole main_v61).slice (win3_2.rect t)).set ↔ _
  rw [View.set_slice_whole, Rect.mem_set_unit]
  exact Iff.rfl

/-- Row r of the array is in the block of point r / 5000. -/
theorem cover (i : S100000x128.Idx) :
    ∃ t : Fin cfg3.N, (cfg3.win 2).flush t = true ∧ i ∈ ((cfg3.win 2).blk t).view.set := by
  have hi0 : (i 0).val < 100000 := (i 0).isLt
  have hi1 : (i 1).val < 128 := (i 1).isLt
  have hlt : (i 0).val / 5000 < grid3.N := by rw [N_3]; omega
  obtain ⟨e0, e1, e2, e3, e4, e5⟩ := idx_facts (⟨(i 0).val / 5000, hlt⟩ : Fin cfg3.N)
  have e4' : win3_2.index (⟨(i 0).val / 5000, hlt⟩ : Fin cfg3.N) (0 : Fin 2) = (i 0).val / 5000 := e4
  refine ⟨⟨(i 0).val / 5000, hlt⟩, flush3_2 _, ?_⟩
  rw [mem_blk]
  intro a
  match a with
  | ⟨0, _⟩ =>
    show win3_2.index ⟨(i 0).val / 5000, hlt⟩ (0 : Fin 2) * 5000 ≤ (i 0).val ∧ (i 0).val < win3_2.index ⟨(i 0).val / 5000, hlt⟩ (0 : Fin 2) * 5000 + 5000
    omega
  | ⟨1, _⟩ =>
    show win3_2.index ⟨(i 0).val / 5000, hlt⟩ (1 : Fin 2) * 128 ≤ (i 1).val ∧ (i 1).val < win3_2.index ⟨(i 0).val / 5000, hlt⟩ (1 : Fin 2) * 128 + 128
    omega

/-- The output array after the region: the bias added to every row, then the positive part. -/
theorem final (c : Dev nD) (b : (⟨S128, .f32⟩ : BufTy).Contents (Elt Ideal))
    (hb : V c main_v60 = shapeCast S1x128 b shapeCasts_S128_S1x128) :
    (dat3 V c).arrAt 2 cfg3.N = Cert.Gcn.biasRelu Ideal (V c main_v59) b :=
  (dat3 V c).arrAt_eq_of_cover 2 _ (fun t _ => flushed_eq V c b hb t) cover

end Cert.KernelIdeal.Region3

end
-- ==== Proof.KerValue.lean ====
/-
  The kernel program's result, read off its run: the output buffer of the last region ends at the two-layer network
  `Gcn.out` of the six argument arrays.
  The run's buffer contents at the boundaries between host stretches and regions are followed in order: the edges'
  sources, targets and weights are computed once before the first region and no later operation or region writes them;
  region 0 leaves x W1, the host aggregates it, region 1 adds the first bias and takes the positive part; region 2
  multiplies by W2, the host aggregates again, region 3 adds the second bias and takes the positive part.
-/
import proofs.«143763_j45140106281283_1_alg».proof.Proof.Gen.KernelIdeal.Frame
import proofs.«143763_j45140106281283_1_alg».proof.Proof.KerHost
import proofs.«143763_j45140106281283_1_alg».proof.Proof.KerRegion0
import proofs.«143763_j45140106281283_1_alg».proof.Proof.KerRegion1
import proofs.«143763_j45140106281283_1_alg».proof.Proof.KerRegion2
import proofs.«143763_j45140106281283_1_alg».proof.Proof.KerRegion3

set_option maxRecDepth 16384

noncomputable section

namespace Cert.KernelIdeal.Value

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

/-! ## The run, with the result buffer read -/

section Run

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with the result buffer at the last boundary's
    contents and the arguments as launched. -/
theorem run_last : θ_run defs (onTc (τ := τ) (main (F := F))) ⟨m, fun _ => 0, ρ⟩ (fun r => ∀ c : Dev nD,
      r.2.mem ((c.tc : Thread nD τ).loc main_v61) = W9 m ρ c (Proc.devRef .tc main_v61)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h c =>
      ⟨h c _ (mem_uc main_v61 (by decide)),
       (h c _ (mem_uc main_arg0 (by decide))).trans (W9_main_arg0 m ρ c),
       (h c _ (mem_uc main_arg1 (by decide))).trans (W9_main_arg1 m ρ c),
       (h c _ (mem_uc main_arg2 (by decide))).trans (W9_main_arg2 m ρ c),
       (h c _ (mem_uc main_arg3 (by decide))).trans (W9_main_arg3 m ρ c),
       (h c _ (mem_uc main_arg4 (by decide))).trans (W9_main_arg4 m ρ c),
       (h c _ (mem_uc main_arg5 (by decide))).trans (W9_main_arg5 m ρ c)⟩)

end Run

/-! ## The contents at the boundaries, at the extended reals -/

section Chain

variable (m : (ℓ : Loc nD τ sig) → Buf (Elt Ideal) ℓ) (ρ : Dev nD → PrngReg) (c : Dev nD)

/-! ### Before the first region -/

theorem w3_src : W3 m ρ c (Proc.devRef .tc main_v3) = Cert.Gcn.src Ideal (m ((c : Thread nD τ).loc main_arg1)) := HostValue.pre_src (W0 m ρ c)
theorem w3_dst : W3 m ρ c (Proc.devRef .tc main_v6) = Cert.Gcn.dst Ideal (m ((c : Thread nD τ).loc main_arg1)) := HostValue.pre_dst (W0 m ρ c)
theorem w3_nrm : W3 m ρ c (Proc.devRef .tc main_v29) = (Cert.Gcn.nrm Ideal (Cert.Gcn.src Ideal (m ((c : Thread nD τ).loc main_arg1))) (Cert.Gcn.dst Ideal (m ((c : Thread nD τ).loc main_arg1)))) := HostValue.pre_nrm (W0 m ρ c)
theorem w3_arg0 : W3 m ρ c (Proc.devRef .tc main_arg0) = (m ((c : Thread nD τ).loc main_arg0)) := HostValue.pre_arg0 (W0 m ρ c)
theorem w3_arg2 : W3 m ρ c (Proc.devRef .tc main_arg2) = (m ((c : Thread nD τ).loc main_arg2)) := HostValue.pre_arg2 (W0 m ρ c)
theorem w3_arg3 : W3 m ρ c (Proc.devRef .tc main_arg3) = (m ((c : Thread nD τ).loc main_arg3)) := HostValue.pre_arg3 (W0 m ρ c)
theorem w3_arg4 : W3 m ρ c (Proc.devRef .tc main_arg4) = (m ((c : Thread nD τ).loc main_arg4)) := HostValue.pre_arg4 (W0 m ρ c)
theorem w3_arg5 : W3 m ρ c (Proc.devRef .tc main_arg5) = (m ((c : Thread nD τ).loc main_arg5)) := HostValue.pre_arg5 (W0 m ρ c)

/-! ### What no later stretch or region writes -/

theorem c4_v3 : W4 m ρ c (Proc.devRef .tc main_v3) = W3 m ρ c (Proc.devRef .tc main_v3) := W4_of_ne m ρ c main_v3 (by decide)
theorem c5_v3 : W5 m ρ c (Proc.devRef .tc main_v3) = W3 m ρ c (Proc.devRef .tc main_v3) := (HostValue.mid_v3 (W4 m ρ c)).trans (c4_v3 m ρ c)
theorem c6_v3 : W6 m ρ c (Proc.devRef .tc main_v3) = W3 m ρ c (Proc.devRef .tc main_v3) := (W6_of_ne m ρ c main_v3 (by decide)).trans (c5_v3 m ρ c)
theorem c7_v3 : W7 m ρ c (Proc.devRef .tc main_v3) = W3 m ρ c (Proc.devRef .tc main_v3) := (W7_of_ne m ρ c main_v3 (by decide)).trans (c6_v3 m ρ c)

theorem c4_v6 : W4 m ρ c (Proc.devRef .tc main_v6) = W3 m ρ c (Proc.devRef .tc main_v6) := W4_of_ne m ρ c main_v6 (by decide)
theorem c5_v6 : W5 m ρ c (Proc.devRef .tc main_v6) = W3 m ρ c (Proc.devRef .tc main_v6) := (HostValue.mid_v6 (W4 m ρ c)).trans (c4_v6 m ρ c)
theorem c6_v6 : W6 m ρ c (Proc.devRef .tc main_v6) = W3 m ρ c (Proc.devRef .tc main_v6) := (W6_of_ne m ρ c main_v6 (by decide)).trans (c5_v6 m ρ c)
theorem c7_v6 : W7 m ρ c (Proc.devRef .tc main_v6) = W3 m ρ c (Proc.devRef .tc main_v6) := (W7_of_ne m ρ c main_v6 (by decide)).trans (c6_v6 m ρ c)

theorem c4_v29 : W4 m ρ c (Proc.devRef .tc main_v29) = W3 m ρ c (Proc.devRef .tc main_v29) := W4_of_ne m ρ c main_v29 (by decide)
theorem c5_v29 : W5 m ρ c (Proc.devRef .tc main_v29) = W3 m ρ c (Proc.devRef .tc main_v29) := (HostValue.mid_v29 (W4 m ρ c)).trans (c4_v29 m ρ c)
theorem c6_v29 : W6 m ρ c (Proc.devRef .tc main_v29) = W3 m ρ c (Proc.devRef .tc main_v29) := (W6_of_ne m ρ c main_v29 (by decide)).trans (c5_v29 m ρ c)
theorem c7_v29 : W7 m ρ c (Proc.devRef .tc main_v29) = W3 m ρ c (Proc.devRef .tc main_v29) := (W7_of_ne m ρ c main_v29 (by decide)).trans (c6_v29 m ρ c)

theorem c4_arg4 : W4 m ρ c (Proc.devRef .tc main_arg4) = W3 m ρ c (Proc.devRef .tc main_arg4) := W4_of_ne m ρ c main_arg4 (by decide)
theorem c5_arg4 : W5 m ρ c (Proc.devRef .tc main_arg4) = W3 m ρ c (Proc.devRef .tc main_arg4) := (HostValue.mid_arg4 (W4 m ρ c)).trans (c4_arg4 m ρ c)
theorem c6_arg4 : W6 m ρ c (Proc.devRef .tc main_arg4) = W3 m ρ c (Proc.devRef .tc main_arg4) := (W6_of_ne m ρ c main_arg4 (by decide)).trans (c5_arg4 m ρ c)

theorem c4_arg5 : W4 m ρ c (Proc.devRef .tc main_arg5) = W3 m ρ c (Proc.devRef .tc main_arg5) := W4_of_ne m ρ c main_arg5 (by decide)
theorem c5_arg5 : W5 m ρ c (Proc.devRef .tc main_arg5) = W3 m ρ c (Proc.devRef .tc main_arg5) := (HostValue.mid_arg5 (W4 m ρ c)).trans (c4_arg5 m ρ c)
theorem c6_arg5 : W6 m ρ c (Proc.devRef .tc main_arg5) = W3 m ρ c (Proc.devRef .tc main_arg5) := (W6_of_ne m ρ c main_arg5 (by decide)).trans (c5_arg5 m ρ c)
theorem c7_arg5 : W7 m ρ c (Proc.devRef .tc main_arg5) = W3 m ρ c (Proc.devRef .tc main_arg5) := (W7_of_ne m ρ c main_arg5 (by decide)).trans (c6_arg5 m ρ c)

theorem c4_arg3 : W4 m ρ c (Proc.devRef .tc main_arg3) = W3 m ρ c (Proc.devRef .tc main_arg3) := W4_of_ne m ρ c main_arg3 (by decide)

/-! ### The first layer -/

/-- Region 0 leaves the product of the features with the first weights. -/
theorem x30 : W4 m ρ c (Proc.devRef .tc main_v30) = (Cert.Gcn.mm Ideal (m ((c : Thread nD τ).loc main_arg0)) (m ((c : Thread nD τ).loc main_arg2))) :=
  (W4_arr m ρ c 2).trans ((Region0.final (V3 m ρ) c).trans (by
    rw [show V3 m ρ c main_arg0 = (m ((c : Thread nD τ).loc main_arg0)) from w3_arg0 m ρ c, show V3 m ρ c main_arg2 = (m ((c : Thread nD τ).loc main_arg2)) from w3_arg2 m ρ c]))

/-- The host aggregates it over the edges. -/
theorem x43 : W5 m ρ c (Proc.devRef .tc main_v43) = (Cert.Gcn.prop Ideal (Cert.Gcn.src Ideal (m ((c : Thread nD τ).loc main_arg1))) (Cert.Gcn.dst Ideal (m ((c : Thread nD τ).loc main_arg1))) (Cert.Gcn.nrm Ideal (Cert.Gcn.src Ideal (m ((c : Thread nD τ).loc main_arg1))) (Cert.Gcn.dst Ideal (m ((c : Thread nD τ).loc main_arg1)))) (Cert.Gcn.mm Ideal (m ((c : Thread nD τ).loc main_arg0)) (m ((c : Thread nD τ).loc main_arg2)))) :=
  (HostValue.mid_agg (W4 m ρ c)).trans (by
    rw [c4_v3 m ρ c, c4_v6 m ρ c, c4_v29 m ρ c, x30 m ρ c, w3_src m ρ c, w3_dst m ρ c, w3_nrm m ρ c])

/-- The bias region's row buffer is the first bias as one row. -/
theorem hb44 : V5 m ρ c main_v44 = shapeCast S1x128 (m ((c : Thread nD τ).loc main_arg3)) shapeCasts_S128_S1x128 :=
  (HostValue.mid_bias (W4 m ρ c)).trans (by rw [c4_arg3 m ρ c, w3_arg3 m ρ c])

/-- Region 1 leaves the first layer's output. -/
theorem x45 : W6 m ρ c (Proc.devRef .tc main_v45) = (Cert.Gcn.biasRelu Ideal (Cert.Gcn.prop Ideal (Cert.Gcn.src Ideal (m ((c : Thread nD τ).loc main_arg1))) (Cert.Gcn.dst Ideal (m ((c : Thread nD τ).loc main_arg1))) (Cert.Gcn.nrm Ideal (Cert.Gcn.src Ideal (m ((c : Thread nD τ).loc main_arg1))) (Cert.Gcn.dst Ideal (m ((c : Thread nD τ).loc main_arg1)))) (Cert.Gcn.mm Ideal (m ((c : Thread nD τ).loc main_arg0)) (m ((c : Thread nD τ).loc main_arg2)))) (m ((c : Thread nD τ).loc main_arg3))) :=
  (W6_arr m ρ c 2).trans ((Region1.final (V5 m ρ) c (m ((c : Thread nD τ).loc main_arg3)) (hb44 m ρ c)).trans (by
    rw [show V5 m ρ c main_v43 = (Cert.Gcn.prop Ideal (Cert.Gcn.src Ideal (m ((c : Thread nD τ).loc main_arg1))) (Cert.Gcn.dst Ideal (m ((c : Thread nD τ).loc main_arg1))) (Cert.Gcn.nrm Ideal (Cert.Gcn.src Ideal (m ((c : Thread nD τ).loc main_arg1))) (Cert.Gcn.dst Ideal (m ((c : Thread nD τ).loc main_arg1)))) (Cert.Gcn.mm Ideal (m ((c : Thread nD τ).loc main_arg0)) (m ((c : Thread nD τ).loc main_arg2)))) from x43 m ρ c]))

/-! ### The second layer -/

/-- Region 2 leaves the product of the first layer's output with the second weights. -/
theorem x46 : W7 m ρ c (Proc.devRef .tc main_v46) = (Cert.Gcn.mm Ideal (Cert.Gcn.biasRelu Ideal (Cert.Gcn.prop Ideal (Cert.Gcn.src Ideal (m ((c : Thread nD τ).loc main_arg1))) (Cert.Gcn.dst Ideal (m ((c : Thread nD τ).loc main_arg1))) (Cert.Gcn.nrm Ideal (Cert.Gcn.src Ideal (m ((c : Thread nD τ).loc main_arg1))) (Cert.Gcn.dst Ideal (m ((c : Thread nD τ).loc main_arg1)))) (Cert.Gcn.mm Ideal (m ((c : Thread nD τ).loc main_arg0)) (m ((c : Thread nD τ).loc main_arg2)))) (m ((c : Thread nD τ).loc main_arg3))) (m ((c : Thread nD τ).loc main_arg4))) :=
  (W7_arr m ρ c 2).trans ((Region2.final (V6 m ρ) c).trans (by
    rw [show V6 m ρ c main_v45 = (Cert.Gcn.biasRelu Ideal (Cert.Gcn.prop Ideal (Cert.Gcn.src Ideal (m ((c : Thread nD τ).loc main_arg1))) (Cert.Gcn.dst Ideal (m ((c : Thread nD τ).loc main_arg1))) (Cert.Gcn.nrm Ideal (Cert.Gcn.src Ideal (m ((c : Thread nD τ).loc main_arg1))) (Cert.Gcn.dst Ideal (m ((c : Thread nD τ).loc main_arg1)))) (Cert.Gcn.mm Ideal (m ((c : Thread nD τ).loc main_arg0)) (m ((c : Thread nD τ).loc main_arg2)))) (m ((c : Thread nD τ).loc main_arg3))) from x45 m ρ c,
      show V6 m ρ c main_arg4 = (m ((c : Thread nD τ).loc main_arg4)) from (c6_arg4 m ρ c).trans (w3_arg4 m ρ c)]))

/-- The host aggregates it over the edges. -/
theorem x59 : W8 m ρ c (Proc.devRef .tc main_v59) = (Cert.Gcn.prop Ideal (Cert.Gcn.src Ideal (m ((c : Thread nD τ).loc main_arg1))) (Cert.Gcn.dst Ideal (m ((c : Thread nD τ).loc main_arg1))) (Cert.Gcn.nrm Ideal (Cert.Gcn.src Ideal (m ((c : Thread nD τ).loc main_arg1))) (Cert.Gcn.dst Ideal (m ((c : Thread nD τ).loc main_arg1)))) (Cert.Gcn.mm Ideal (Cert.Gcn.biasRelu Ideal (Cert.Gcn.prop Ideal (Cert.Gcn.src Ideal (m ((c : Thread nD τ).loc main_arg1))) (Cert.Gcn.dst Ideal (m ((c : Thread nD τ).loc main_arg1))) (Cert.Gcn.nrm Ideal (Cert.Gcn.src Ideal (m ((c : Thread nD τ).loc main_arg1))) (Cert.Gcn.dst Ideal (m ((c : Thread nD τ).loc main_arg1)))) (Cert.Gcn.mm Ideal (m ((c : Thread nD τ).loc main_arg0)) (m ((c : Thread nD τ).loc main_arg2)))) (m ((c : Thread nD τ).loc main_arg3))) (m ((c : Thread nD τ).loc main_arg4)))) :=
  (HostValue.last_agg (W7 m ρ c)).trans (by
    rw [c7_v3 m ρ c, c7_v6 m ρ c, c7_v29 m ρ c, x46 m ρ c, w3_src m ρ c, w3_dst m ρ c, w3_nrm m ρ c])

/-- The last region's row buffer is the second bias as one row. -/
theorem hb60 : V8 m ρ c main_v60 = shapeCast S1x128 (m ((c : Thread nD τ).loc main_arg5)) shapeCasts_S128_S1x128 :=
  (HostValue.last_bias (W7 m ρ c)).trans (by rw [c7_arg5 m ρ c, w3_arg5 m ρ c])

/-- Region 3 leaves the network's output. -/
theorem x61 : W9 m ρ c (Proc.devRef .tc main_v61) = (Cert.Gcn.biasRelu Ideal (Cert.Gcn.prop Ideal (Cert.Gcn.src Ideal (m ((c : Thread nD τ).loc main_arg1))) (Cert.Gcn.dst Ideal (m ((c : Thread nD τ).loc main_arg1))) (Cert.Gcn.nrm Ideal (Cert.Gcn.src Ideal (m ((c : Thread nD τ).loc main_arg1))) (Cert.Gcn.dst Ideal (m ((c : Thread nD τ).loc main_arg1)))) (Cert.Gcn.mm Ideal (Cert.Gcn.biasRelu Ideal (Cert.Gcn.prop Ideal (Cert.Gcn.src Ideal (m ((c : Thread nD τ).loc main_arg1))) (Cert.Gcn.dst Ideal (m ((c : Thread nD τ).loc main_arg1))) (Cert.Gcn.nrm Ideal (Cert.Gcn.src Ideal (m ((c : Thread nD τ).loc main_arg1))) (Cert.Gcn.dst Ideal (m ((c : Thread nD τ).loc main_arg1)))) (Cert.Gcn.mm Ideal (m ((c : Thread nD τ).loc main_arg0)) (m ((c : Thread nD τ).loc main_arg2)))) (m ((c : Thread nD τ).loc main_arg3))) (m ((c : Thread nD τ).loc main_arg4)))) (m ((c : Thread nD τ).loc main_arg5))) :=
  (W9_arr m ρ c 2).trans ((Region3.final (V8 m ρ) c (m ((c : Thread nD τ).loc main_arg5)) (hb60 m ρ c)).trans (by
    rw [show V8 m ρ c main_v59 = (Cert.Gcn.prop Ideal (Cert.Gcn.src Ideal (m ((c : Thread nD τ).loc main_arg1))) (Cert.Gcn.dst Ideal (m ((c : Thread nD τ).loc main_arg1))) (Cert.Gcn.nrm Ideal (Cert.Gcn.src Ideal (m ((c : Thread nD τ).loc main_arg1))) (Cert.Gcn.dst Ideal (m ((c : Thread nD τ).loc main_arg1)))) (Cert.Gcn.mm Ideal (Cert.Gcn.biasRelu Ideal (Cert.Gcn.prop Ideal (Cert.Gcn.src Ideal (m ((c : Thread nD τ).loc main_arg1))) (Cert.Gcn.dst Ideal (m ((c : Thread nD τ).loc main_arg1))) (Cert.Gcn.nrm Ideal (Cert.Gcn.src Ideal (m ((c : Thread nD τ).loc main_arg1))) (Cert.Gcn.dst Ideal (m ((c : Thread nD τ).loc main_arg1)))) (Cert.Gcn.mm Ideal (m ((c : Thread nD τ).loc main_arg0)) (m ((c : Thread nD τ).loc main_arg2)))) (m ((c : Thread nD τ).loc main_arg3))) (m ((c : Thread nD τ).loc main_arg4)))) from x59 m ρ c]))

/-- The result buffer ends at the network of the arguments. -/
theorem result : W9 m ρ c (Proc.devRef .tc main_v61)
    = Cert.Gcn.out Ideal (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) :=
  (x61 m ρ c).trans rfl

end Chain

/-- Every weakly fair execution of the kernel's program terminates with its result at the network of the arguments,
    the arguments unchanged. -/
theorem run (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c.tc : Thread nD τ).loc main_v61)
        = Cert.Gcn.out Ideal (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c => ⟨(h c).1.trans (result m ρ c), (h c).2⟩) (run_last m ρ)

end Cert.KernelIdeal.Value

end
-- ==== Proof.lean ====
/-
  The certificate of a two-layer graph convolution: a kernel program that computes each layer's dense product
  x W in a tiled matmul kernel (20 row blocks of 5000 x 128, its inputs rounded to bf16 on the way in) and each
  layer's bias and positive part in a tiled elementwise kernel, with the sparse aggregation over the 1.7 million
  edges (gather of source rows, scaling by the edge weights, scatter-add into target rows) left to host operations,
  against a reference that does everything with host operations.

  At the extended reals a change of float format is the identity, a tile product accumulated into zero is the sum over
  the contracted index, and the host's matrix product is the same sum; so each matmul region leaves the whole product
  (every row of the array lies in exactly the block of its row index divided by 5000), and each bias region leaves
  max (a + b, 0) entry by entry. The degree, the edge weights and the aggregation are the SAME host operations in both
  programs, applied to equal arrays; they are carried as one function and never opened. No law that needs finite
  values is used: the precondition is not opened.

  The three frames: the kernel's two programs by their generated frame certificates; the reference's from its run.
  The idealization rewrote no operation. The algebraic claim: both runs end with the result at `Gcn.out` of the
  argument arrays (`Cert.KernelIdeal.Value.run`, `Cert.ReferenceIdeal.RefValue.run`), and the arguments agree.
-/
import proofs.«143763_j45140106281283_1_alg».proof.Defs
import proofs.«143763_j45140106281283_1_alg».proof.Proof.Gen.Kernel
import proofs.«143763_j45140106281283_1_alg».proof.Proof.Gen.Kernel.Skeleton
import proofs.«143763_j45140106281283_1_alg».proof.Proof.Gen.Kernel.Launch
import proofs.«143763_j45140106281283_1_alg».proof.Proof.Gen.Kernel.Points
import proofs.«143763_j45140106281283_1_alg».proof.Proof.Gen.Kernel.Frame
import proofs.«143763_j45140106281283_1_alg».proof.Proof.Gen.KernelIdeal
import proofs.«143763_j45140106281283_1_alg».proof.Proof.Gen.KernelIdeal.Skeleton
import proofs.«143763_j45140106281283_1_alg».proof.Proof.Gen.KernelIdeal.Launch
import proofs.«143763_j45140106281283_1_alg».proof.Proof.Gen.KernelIdeal.Points
import proofs.«143763_j45140106281283_1_alg».proof.Proof.Gen.KernelIdeal.Frame
import proofs.«143763_j45140106281283_1_alg».proof.Proof.Gen.ReferenceIdeal
import proofs.«143763_j45140106281283_1_alg».proof.Proof.Gen.Pre_finite_inputs
import proofs.«143763_j45140106281283_1_alg».proof.Proof.RefValue
import proofs.«143763_j45140106281283_1_alg».proof.Proof.KerValue
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame: its run, the result dropped. -/
theorem frame_referenceIdeal : Cert.frame_ReferenceIdeal := fun m ρ _ =>
  (θ_run Cert.ReferenceIdeal.defs _ _).mono (fun _ h c => (h c).2) (Cert.ReferenceIdeal.RefValue.run (F := Ideal) m ρ)

/-- The idealization rewrote nothing. -/
theorem preserves : Cert.preserves_Kernel_KernelIdeal := trivial

/-- Both programs end with the result at the network of the argument arrays, and the argument arrays agree. -/
theorem algebraic : Cert.algebraic_KernelIdeal_ReferenceIdeal := by
  intro m ρ m' ρ' _ hagree
  refine ⟨_, Cert.KernelIdeal.Value.run m ρ, ?_⟩
  refine (θ_run Cert.ReferenceIdeal.defs _ _).mono (fun _ h c => ⟨(h c).1.trans ?_, (h c).2⟩)
    (Cert.ReferenceIdeal.RefValue.run (F := Ideal) m' ρ')
  rw [(hagree c).1, (hagree c).2.1, (hagree c).2.2.1, (hagree c).2.2.2.1, (hagree c).2.2.2.2.1, (hagree c).2.2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
